-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part5 {F : FTy → Type} [FloatOps F] (main_arg18 : FVec F S1024 .f32) (main_v83 : IVec S_ 1) (main_v84 : FVec F S1024x1024 .f32) (main_cst_32 : FVec F S_ .f32) : IVec S_ 1 :=
  let main_v85 : FVec F S1024x1024 .f32 := broadcastInDim S1024x1024 ![] bcast_S_S1024x1024 main_cst_32
  let main_v86 : IVec S1024x1024 1 := cmpf .olt main_v84 main_v85
  let main_c_33 : IVec S_ 1 := constantI S_ 1 1#1
  let main_v87 : IVec S_ 1 := (fun x v => Host.reduce IntOp.andi x v reducesTo_S1024x1024_S_d0_1 h_S_) main_v86 main_c_33
  let main_v88 : IVec S_ 1 := andi main_v83 main_v87
  let main_v89 : FVec F S1024 .f32 := Host.absf main_arg18
  let main_cst_34 : FVec F S_ .f32 := constant S_ .f32 0x7F800000#32
  let main_v90 : FVec F S1024 .f32 := broadcastInDim S1024 ![] bcast_S_S1024 main_cst_34
  let main_v91 : IVec S1024 1 := cmpf .olt main_v89 main_v90
  let main_c_35 : IVec S_ 1 := constantI S_ 1 1#1
  let main_v92 : IVec S_ 1 := (fun x v => Host.reduce IntOp.andi x v reducesTo_S1024_S_d0 h_S_) main_v91 main_c_35
  let main_v93 : IVec S_ 1 := andi main_v88 main_v92
  main_v93

def fn_part4 {F : FTy → Type} [FloatOps F] (main_arg14 : FVec F S1024 .f32) (main_arg15 : FVec F S1024x1024 .f32) (main_arg16 : FVec F S1024 .f32) (main_arg17 : FVec F S1024x1024 .f32) (main_arg18 : FVec F S1024 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  let main_v74 : FVec F S1024x1024 .f32 := Host.absf main_arg15
  let main_cst_28 : FVec F S_ .f32 := constant S_ .f32 0x7F800000#32
  let main_v75 : FVec F S1024x1024 .f32 := broadcastInDim S1024x1024 ![] bcast_S_S1024x1024 main_cst_28
  let main_v76 : IVec S1024x1024 1 := cmpf .olt main_v74 main_v75
  let main_c_29 : IVec S_ 1 := constantI S_ 1 1#1
  let main_v77 : IVec S_ 1 := (fun x v => Host.reduce IntOp.andi x v reducesTo_S1024x1024_S_d0_1 h_S_) main_v76 main_c_29
  let main_v78 : IVec S_ 1 := andi main_v73 main_v77
  let main_v79 : FVec F S1024 .f32 := Host.absf main_arg16
  let main_cst_30 : FVec F S_ .f32 := constant S_ .f32 0x7F800000#32
  let main_v80 : FVec F S1024 .f32 := broadcastInDim S1024 ![] bcast_S_S1024 main_cst_30
  let main_v81 : IVec S1024 1 := cmpf .olt main_v79 main_v80
  let main_c_31 : IVec S_ 1 := constantI S_ 1 1#1
  let main_v82 : IVec S_ 1 := (fun x v => Host.reduce IntOp.andi x v reducesTo_S1024_S_d0 h_S_) main_v81 main_c_31
  let main_v83 : IVec S_ 1 := andi main_v78 main_v82
  let main_v84 : FVec F S1024x1024 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024x1024 .f32 := Host.absf main_arg11
  let main_cst_20 : FVec F S_ .f32 := constant S_ .f32 0x7F800000#32
  let main_v55 : FVec F S1024x1024 .f32 := broadcastInDim S1024x1024 ![] bcast_S_S1024x1024 main_cst_20
  let main_v56 : IVec S1024x1024 1 := cmpf .olt main_v54 main_v55
  let main_c_21 : IVec S_ 1 := constantI S_ 1 1#1
  let main_v57 : IVec S_ 1 := (fun x v => Host.reduce IntOp.andi x v reducesTo_S1024x1024_S_d0_1 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024x1024 .f32 := Host.absf main_arg13
  let main_cst_24 : FVec F S_ .f32 := constant S_ .f32 0x7F800000#32
  let main_v65 : FVec F S1024x1024 .f32 := broadcastInDim S1024x1024 ![] bcast_S_S1024x1024 main_cst_24
  let main_v66 : IVec S1024x1024 1 := cmpf .olt main_v64 main_v65
  let main_c_25 : IVec S_ 1 := constantI S_ 1 1#1
  let main_v67 : IVec S_ 1 := (fun x v => Host.reduce IntOp.andi x v reducesTo_S1024x1024_S_d0_1 h_S_) main_v66 main_c_25
  fn_part4 (F := F) main_arg14 main_arg15 main_arg16 main_arg17 main_arg18 main_v63 main_v67

def fn_part2 {F : FTy → Type} [FloatOps F] (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_arg14 main_arg15 main_arg16 main_arg17 main_arg18 main_v48 main_v49 main_v50

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S8192x1024 .f32) (main_arg1 : FVec F S8192x1024 .f32) (main_arg2 : FVec F S8192x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S8192x1024 : Shape := ⟨2, ![8192, 1024]⟩
abbrev S1024x1024 : Shape := ⟨2, ![1024, 1024]⟩
abbrev S1024 : Shape := ⟨1, ![1024]⟩
abbrev S512x1024 : Shape := ⟨2, ![512, 1024]⟩
abbrev S1x1024 : Shape := ⟨2, ![1, 1024]⟩

abbrev nBuf : Space → Nat
  | .hbm => 33
  | .vmem => 22
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024x1024, .f32⟩
  | .hbm, ⟨14, _⟩ => ⟨S1024, .f32⟩
  | .hbm, ⟨15, _⟩ => ⟨S1024x1024, .f32⟩
  | .hbm, ⟨16, _⟩ => ⟨S1024, .f32⟩
  | .hbm, ⟨17, _⟩ => ⟨S1024x1024, .f32⟩
  | .hbm, ⟨18, _⟩ => ⟨S1024, .f32⟩
  | .hbm, ⟨19, _⟩ => ⟨S1024x1024, .bf16⟩
  | .hbm, ⟨20, _⟩ => ⟨S1024x1024, .bf16⟩
  | .hbm, ⟨21, _⟩ => ⟨S1024x1024, .bf16⟩
  | .hbm, ⟨22, _⟩ => ⟨S1024x1024, .bf16⟩
  | .hbm, ⟨23, _⟩ => ⟨S1024x1024, .bf16⟩
  | .hbm, ⟨24, _⟩ => ⟨S1024x1024, .bf16⟩
  | .hbm, ⟨25, _⟩ => ⟨S1024x1024, .bf16⟩
  | .hbm, ⟨26, _⟩ => ⟨S1024x1024, .bf16⟩
  | .hbm, ⟨27, _⟩ => ⟨S1024, .f32⟩
  | .hbm, ⟨28, _⟩ => ⟨S1024, .f32⟩
  | .hbm, ⟨29, _⟩ => ⟨S1024, .f32⟩
  | .hbm, ⟨30, _⟩ => ⟨S1024, .f32⟩
  | .hbm, ⟨31, _⟩ => ⟨S8192x1024, .f32⟩
  | .hbm, ⟨32, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024, .f32⟩
  | .local _ .vmem, ⟨15, _⟩ => ⟨S1024, .f32⟩
  | .local _ .vmem, ⟨16, _⟩ => ⟨S1024, .f32⟩
  | .local _ .vmem, ⟨17, _⟩ => ⟨S1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12_0 : Ref sig .tc := ⟨.hbm, 31, rfl⟩
abbrev main_v12_1 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19
abbrev cc0_sem16_0 : DmaSem sig := 20
abbrev cc0_sem16_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

class Facts₀ : Prop where
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1024 : S1024.ShapeCasts S1024
  shapeCasts_S1024_S1x1024 : S1024.ShapeCasts S1x1024
  broadcasts_S1x1024_S512x1024 : S1x1024.Broadcasts S512x1024
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S8192x1024.size a
  hwx0_1 : ∀ i : grid0.Coords, EltTy.bits .f32 = 32 ∨ (Rect.block (s := S8192x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S8192x1024.size a
  hwx0_2 : ∀ i : grid0.Coords, EltTy.bits .f32 = 32 ∨ (Rect.block (s := S8192x1024) S512x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .bf16 = 32 ∨ (Rect.block (s := S1024x1024) S1024x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S1024x1024.size a
  hwx0_7 : ∀ i : grid0.Coords, EltTy.bits .bf16 = 32 ∨ (Rect.block (s := S1024x1024) S1024x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024x1024.size a ≤ S1024x1024.size a
  hwx0_8 : ∀ i : grid0.Coords, EltTy.bits .bf16 = 32 ∨ (Rect.block (s := S1024x1024) S1024x1024.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024x1024.size a ≤ S1024x1024.size a
  hwx0_9 : ∀ i : grid0.Coords, EltTy.bits .bf16 = 32 ∨ (Rect.block (s := S1024x1024) S1024x1024.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1024x1024.size a ≤ S1024x1024.size a
  hwx0_10 : ∀ i : grid0.Coords, EltTy.bits .bf16 = 32 ∨ (Rect.block (s := S1024x1024) S1024x1024.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1024.size a ≤ S1024.size a
  hwx0_11 : ∀ i : grid0.Coords, EltTy.bits .f32 = 32 ∨ (Rect.block (s := S1024) S1024.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1024.size a ≤ S1024.size a
  hwx0_12 : ∀ i : grid0.Coords, EltTy.bits .f32 = 32 ∨ (Rect.block (s := S1024) S1024.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1024.size a ≤ S1024.size a
  hwx0_13 : ∀ i : grid0.Coords, EltTy.bits .f32 = 32 ∨ (Rect.block (s := S1024) S1024.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1024.size a ≤ S1024.size a
  hwx0_14 : ∀ i : grid0.Coords, EltTy.bits .f32 = 32 ∨ (Rect.block (s := S1024) S1024.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S512x1024.size a ≤ S8192x1024.size a
  hwx0_15 : ∀ i : grid0.Coords, EltTy.bits .f32 = 32 ∨ (Rect.block (s := S8192x1024) S512x1024.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S512x1024.size a ≤ S8192x1024.size a
  hwx0_16 : ∀ i : grid0.Coords, EltTy.bits .f32 = 32 ∨ (Rect.block (s := S8192x1024) S512x1024.size (cc0_transform_16 i) (hinb0_16 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1024x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S1024x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v6) S1024x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v7) S1024x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v8) S1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v9) S1024.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v10) S1024.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v11) S1024.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v12_0) S512x1024.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v12_1) S512x1024.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S1024x1024 : Shape := ⟨2, ![1024, 1024]⟩
abbrev S1024 : Shape := ⟨1, ![1024]⟩
abbrev S4096x1024 : Shape := ⟨2, ![4096, 1024]⟩
abbrev S4096 : Shape := ⟨1, ![4096]⟩
abbrev S1024x4096 : Shape := ⟨2, ![1024, 4096]⟩
abbrev S8192x4096 : Shape := ⟨2, ![8192, 4096]⟩
abbrev S1x4096 : Shape := ⟨2, ![1, 4096]⟩
abbrev S_ : Shape := ⟨0, ![]⟩

abbrev nBuf : Space → Nat
  | .hbm => 68
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024x1024, .f32⟩
  | .hbm, ⟨14, _⟩ => ⟨S1024, .f32⟩
  | .hbm, ⟨15, _⟩ => ⟨S1024x1024, .f32⟩
  | .hbm, ⟨16, _⟩ => ⟨S1024, .f32⟩
  | .hbm, ⟨17, _⟩ => ⟨S1024x1024, .f32⟩
  | .hbm, ⟨18, _⟩ => ⟨S1024, .f32⟩
  | .hbm, ⟨19, _⟩ => ⟨S4096x1024, .f32⟩
  | .hbm, ⟨20, _⟩ => ⟨S4096x1024, .f32⟩
  | .hbm, ⟨21, _⟩ => ⟨S4096, .f32⟩
  | .hbm, ⟨22, _⟩ => ⟨S4096, .f32⟩
  | .hbm, ⟨23, _⟩ => ⟨S1024x4096, .f32⟩
  | .hbm, ⟨24, _⟩ => ⟨S8192x4096, .f32⟩
  | .hbm, ⟨25, _⟩ => ⟨S1024x4096, .f32⟩
  | .hbm, ⟨26, _⟩ => ⟨S8192x4096, .f32⟩
  | .hbm, ⟨27, _⟩ => ⟨S8192x4096, .f32⟩
  | .hbm, ⟨28, _⟩ => ⟨S1x4096, .f32⟩
  | .hbm, ⟨29, _⟩ => ⟨S8192x4096, .f32⟩
  | .hbm, ⟨30, _⟩ => ⟨S8192x4096, .f32⟩
  | .hbm, ⟨31, _⟩ => ⟨S1x4096, .f32⟩
  | .hbm, ⟨32, _⟩ => ⟨S8192x4096, .f32⟩
  | .hbm, ⟨33, _⟩ => ⟨S8192x4096, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S_, .f32⟩
  | .hbm, ⟨58, _⟩ => ⟨S8192x1024, .f32⟩
  | .hbm, ⟨59, _⟩ => ⟨S8192x1024, .f32⟩
  | .hbm, ⟨60, _⟩ => ⟨S_, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst : Ref sig .tc := ⟨.hbm, 40, rfl⟩
abbrev main_v21 : Ref sig .tc := ⟨.hbm, 41, rfl⟩
abbrev main_v22 : Ref sig .tc := ⟨.hbm, 42, rfl⟩
abbrev main_cst_0 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_1 : Ref sig .tc := ⟨.hbm, 48, rfl⟩
abbrev main_v27 : Ref sig .tc := ⟨.hbm, 49, rfl⟩
abbrev main_v28 : Ref sig .tc := ⟨.hbm, 50, rfl⟩
abbrev main_cst_2 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_3 : Ref sig .tc := ⟨.hbm, 57, rfl⟩
abbrev main_v34 : Ref sig .tc := ⟨.hbm, 58, rfl⟩
abbrev main_v35 : Ref sig .tc := ⟨.hbm, 59, rfl⟩
abbrev main_cst_4 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩

abbrev nD : Nat := 1
abbrev τ : Topo := Topo.v7x

variable {F : FTy → Type} [FloatOps F]

class Facts₀ : Prop where
  concatenates_S1024x1024_S1024x1024_S1024x1024_S1024x1024_S4096x1024_d0 : Shape.Concatenates [S1024x1024, S1024x1024, S1024x1024, S1024x1024] S4096x1024 0
  concatenates_S1024_S1024_S1024_S1024_S4096_d0 : Shape.Concatenates [S1024, S1024, S1024, S1024] S4096 0
  transposes_S4096x1024_S1024x4096_1_0 : S4096x1024.Transposes [1, 0] S1024x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  slices_S8192x4096_S8192x1024_0_0 : S8192x4096.Slices ![0, 0] S8192x1024
  slices_S8192x4096_S8192x1024_0_1024 : S8192x4096.Slices ![0, 1024] S8192x1024
  slices_S8192x4096_S8192x1024_0_2048 : S8192x4096.Slices ![0, 2048] S8192x1024
  slices_S8192x4096_S8192x1024_0_3072 : S8192x4096.Slices ![0, 3072] S8192x1024
  bcast_S_S8192x1024 : S_.BroadcastsInDim S8192x1024 (![] : Fin 0 → Fin S8192x1024.rank)
  dot_S8192x1024_S1024x4096_S8192x4096_1_0_0_1_n_n_wf : DotDims.WF S8192x1024 S1024x4096 S8192x4096 [1] [0] [0] [1] [] []

variable [Facts₀]

def dot_S8192x1024_S1024x4096_S8192x4096_1_0_0_1_n_n : DotDims S8192x1024 S1024x4096 S8192x4096 where
  lhsContracting := [1]
  rhsContracting := [0]
  lhsNonContracting := [0]
  rhsNonContracting := [1]
  lhsBatch := []
  rhsBatch := []
  wf := dot_S8192x1024_S1024x4096_S8192x4096_1_0_0_1_n_n_wf

class Facts : Prop extends Facts₀ where

variable [Facts]
-- ==== Proof.LibDotNT.lean ====
/-
  A matrix product against a transposed right operand, read at an index.

  For dimension numbers `D` of a product of an `M × K` operand with an `N × K` operand into `M × N` that contract ONE
  axis — the second axis of each operand, no batch axis (`x · wᵀ`) — the sum over `D`'s contraction index that the ideal
  instance gives for a `tpu.matmul` and for a host `dot_general` alike is the textbook one: entry `(r, c)` is the sum over
  `k : Fin K` of the left operand at `(r, k)` times the right operand at `(c, k)`.  What makes a given `D` of this kind is
  stated as four facts about the coordinates of its operand indices, which a concrete record proves by unfolding its
  lists of axes.
-/
import Idealize.ShloMosaic.Lib.ValueIdx
import Idealize.ShloMosaic.PureOps.Ideal.Laws

noncomputable section

open scoped BigOperators

namespace Cert.Lib.DotNT

open Idealize.ShloMosaic Idealize.ShloMosaic.ValueIdx

/-- The contraction sum re-indexed by the contracted axis' coordinate: at the output index `j` the left operand is
    read along its row `j 0` and the right operand along its row `j 1`. -/
theorem sum_nt {M K N : Nat}
    (D : DotDims (⟨2, ![M, K]⟩ : Shape) (⟨2, ![N, K]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (j 1).val)
    (r1 : ∀ (j : (⟨2, ![M, N]⟩ : Shape).Idx) (q : D.contr.Idx), (D.rhsIdx j q 1).val = (q ⟨0, by omega⟩).val)
    (l : (⟨2, ![M, K]⟩ : Shape).Idx → EReal) (r : (⟨2, ![N, K]⟩ : Shape).Idx → EReal)
    (j : (⟨2, ![M, N]⟩ : Shape).Idx) :
    ∑ q : D.contr.Idx, l (D.lhsIdx j q) * r (D.rhsIdx j q) = ∑ k : Fin K, l (ix2 (j 0) k) * r (ix2 (j 1) k) := by
  rw [← Equiv.sum_comp (contrEquiv1 D K hr hs).symm]
  refine Finset.sum_congr rfl fun k _ => ?_
  have hk := contrEquiv1_symm_val D K hr hs k
  have el : D.lhsIdx j ((contrEquiv1 D K hr hs).symm k) = ix2 (j 0) k := funext fun a => Fin.ext (by
    match a with
    | ⟨0, _⟩ => exact l0 _ _
    | ⟨1, _⟩ => exact (l1 _ _).trans hk)
  have er : D.rhsIdx j ((contrEquiv1 D K hr hs).symm k) = ix2 (j 1) k := funext fun a => Fin.ext (by
    match a with
    | ⟨0, _⟩ => exact r0 _ _
    | ⟨1, _⟩ => exact (r1 _ _).trans hk)
  exact congrArg₂ (fun a b : EReal => a * b) (congrArg l el) (congrArg r er)

/-- A `tpu.matmul` with such dimension numbers, at the ideal instance: the accumulator's entry plus that sum. -/
theorem matmul_apply {M K N : Nat} {φ₁ φ₂ : FTy}
    (D : DotDims (⟨2, ![M, K]⟩ : Shape) (⟨2, ![N, K]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (j 1).val)
    (r1 : ∀ (j : (⟨2, ![M, N]⟩ : Shape).Idx) (q : D.contr.Idx), (D.rhsIdx j q 1).val = (q ⟨0, by omega⟩).val)
    (prec : Option ContractPrecision)
    (l : FVec Ideal (⟨2, ![M, K]⟩ : Shape) φ₁) (r : FVec Ideal (⟨2, ![N, K]⟩ : Shape) φ₂)
    (acc : FVec Ideal (⟨2, ![M, N]⟩ : Shape) .f32) (j : (⟨2, ![M, N]⟩ : Shape).Idx) :
    FloatOps.matmul D prec l r acc j = acc j + ∑ k : Fin K, l (ix2 (j 0) k) * r (ix2 (j 1) k) := by
  rw [Ideal.matmul_apply]
  exact congrArg (acc j + ·) (sum_nt D hr hs l0 l1 r0 r1 l r j)

/-- Into the zero accumulator: just the sum. -/
theorem matmul_zero_apply {M K N : Nat} {φ₁ φ₂ : FTy}
    (D : DotDims (⟨2, ![M, K]⟩ : Shape) (⟨2, ![N, K]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (j 1).val)
    (r1 : ∀ (j : (⟨2, ![M, N]⟩ : Shape).Idx) (q : D.contr.Idx), (D.rhsIdx j q 1).val = (q ⟨0, by omega⟩).val)
    (prec : Option ContractPrecision)
    (l : FVec Ideal (⟨2, ![M, K]⟩ : Shape) φ₁) (r : FVec Ideal (⟨2, ![N, K]⟩ : Shape) φ₂)
    (j : (⟨2, ![M, N]⟩ : Shape).Idx) :
    FloatOps.matmul D prec l r (constant (⟨2, ![M, N]⟩ : Shape) .f32 0x00000000#32) j
      = ∑ k : Fin K, l (ix2 (j 0) k) * r (ix2 (j 1) k) := by
  rw [Ideal.matmul_constant_zero_apply]
  exact sum_nt D hr hs l0 l1 r0 r1 l r j

/-- A host `dot_general` with such dimension numbers, at the ideal instance, is the same sum, whatever its precision
    and schedule keys. -/
theorem dotGeneral_apply {M K N : Nat} {φ₁ φ₂ : FTy}
    (D : DotDims (⟨2, ![M, K]⟩ : Shape) (⟨2, ![N, K]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (j 1).val)
    (r1 : ∀ (j : (⟨2, ![M, N]⟩ : Shape).Idx) (q : D.contr.Idx), (D.rhsIdx j q 1).val = (q ⟨0, by omega⟩).val)
    (prec : Option ContractPrecision) (sched : HostSchedule)
    (l : FVec Ideal (⟨2, ![M, K]⟩ : Shape) φ₁) (r : FVec Ideal (⟨2, ![N, K]⟩ : Shape) φ₂)
    (j : (⟨2, ![M, N]⟩ : Shape).Idx) :
    FloatOps.dotGeneral D prec sched l r j = ∑ k : Fin K, l (ix2 (j 0) k) * r (ix2 (j 1) k) := by
  rw [Ideal.dotGeneral_apply]
  exact sum_nt D hr hs l0 l1 r0 r1 l r j

end Cert.Lib.DotNT

end
-- ==== Proof.Cell.lean ====
/-
  One step of an LSTM cell, entry by entry, on the extended reals.

  For a batch of 8192 rows, input and hidden width 1024, the four gates (input, forget, candidate, output) each have a
  pre-activation at batch row `r` and unit `j`:

      pre r j  =  (Σ_k x[r,k] · Wx[j,k]  +  Σ_k h[r,k] · Wh[j,k])  +  (bx[j] + bh[j]),

  the input-side and the hidden-side projection, each against the TRANSPOSE of its weight matrix, plus the two biases.
  With σ the logistic function the new cell state and the new hidden state are

      c' = σ(pre_f) · c + σ(pre_i) · tanh(pre_g),        h' = σ(pre_o) · tanh(c').

  Two spellings of the same numbers are joined here.  Adding the two biases one after the other instead of adding their
  sum is associativity of addition, which holds on the extended reals as it stands (no finiteness is needed).  And
  `1 / (1 + e^(-p))` with the extended reals' conventions for division and for the exponential IS the logistic function
  there, by its definition, once the literal `1.0` is read as the number one.
-/
import Idealize.ShloMosaic.PureOps.Ideal
import Idealize.ShloMosaic.Lib.ValueIdx
import Idealize.ShloMosaic.Lib.IdealHost

noncomputable section

open scoped BigOperators

namespace Cert.Lstm

open Idealize.ShloMosaic Idealize.ShloMosaic.ValueIdx

/-- A batch of activations: 8192 rows of width 1024. -/
abbrev Acts : Type := (⟨2, ![8192, 1024]⟩ : Shape).Idx → EReal
/-- One gate's weight matrix on one side: unit `j`'s row holds its 1024 coefficients. -/
abbrev Wts : Type := (⟨2, ![1024, 1024]⟩ : Shape).Idx → EReal
/-- One gate's bias on one side. -/
abbrev Bias : Type := (⟨1, ![1024]⟩ : Shape).Idx → EReal

/-- The arrays of one step, in the order the programs take them: the input `x`, the previous hidden state `h` and cell
    state `c`, then for each gate (input, forget, candidate, output) the input-side weight and bias and the hidden-side
    weight and bias. -/
structure Params where
  x : Acts
  h : Acts
  c : Acts
  wxi : Wts
  bxi : Bias
  whi : Wts
  bhi : Bias
  wxf : Wts
  bxf : Bias
  whf : Wts
  bhf : Bias
  wxg : Wts
  bxg : Bias
  whg : Wts
  bhg : Bias
  wxo : Wts
  bxo : Bias
  who : Wts
  bho : Bias

/-- Row `r` of the activations `a` against row `j` of the weights `w`: one entry of `a · wᵀ`. -/
def proj (a : Acts) (w : Wts) (r : Fin 8192) (j : Fin 1024) : EReal :=
  ∑ k : Fin 1024, a (ix2 r k) * w (ix2 j k)

/-- A gate's pre-activation at batch row `r` and unit `j`: the two projections, plus the sum of the two biases. -/
def pre (x h : Acts) (wx wh : Wts) (bx bh : Bias) (r : Fin 8192) (j : Fin 1024) : EReal :=
  (proj x wx r j + proj h wh r j) + (bx (ix1 j) + bh (ix1 j))

/-- The new cell state from the input, forget and candidate pre-activations and the old cell state. -/
def cellOf (pi pf pg c : EReal) : EReal :=
  Ideal.logistic pf * c + Ideal.logistic pi * Ideal.tanh pg

/-- The new hidden state from the output pre-activation and the new cell state. -/
def hiddenOf (po cn : EReal) : EReal :=
  Ideal.logistic po * Ideal.tanh cn

/-- The new cell state at batch row `r`, unit `j`. -/
def cellAt (P : Params) (r : Fin 8192) (j : Fin 1024) : EReal :=
  cellOf (pre P.x P.h P.wxi P.whi P.bxi P.bhi r j) (pre P.x P.h P.wxf P.whf P.bxf P.bhf r j)
    (pre P.x P.h P.wxg P.whg P.bxg P.bhg r j) (P.c (ix2 r j))

/-- The new hidden state at batch row `r`, unit `j`. -/
def hiddenAt (P : Params) (r : Fin 8192) (j : Fin 1024) : EReal :=
  hiddenOf (pre P.x P.h P.wxo P.who P.bxo P.bho r j) (cellAt P r j)

/-- The new cell state as a whole array. -/
def cellNext (P : Params) : Acts := fun i => cellAt P (i 0) (i 1)

/-- The new hidden state as a whole array. -/
def hiddenNext (P : Params) : Acts := fun i => hiddenAt P (i 0) (i 1)

theorem cellNext_ix2 (P : Params) (r : Fin 8192) (j : Fin 1024) : cellNext P (ix2 r j) = cellAt P r j := rfl

theorem hiddenNext_ix2 (P : Params) (r : Fin 8192) (j : Fin 1024) : hiddenNext P (ix2 r j) = hiddenAt P r j := rfl

/-- Adding the two biases one after the other is adding their sum. -/
theorem pre_eq_successive (x h : Acts) (wx wh : Wts) (bx bh : Bias) (r : Fin 8192) (j : Fin 1024) :
    ((proj x wx r j + proj h wh r j) + bx (ix1 j)) + bh (ix1 j) = pre x h wx wh bx bh r j :=
  add_assoc _ _ _

/-- The quotient `1 / (1 + e^(-p))`, the one spelt by the float literal `1.0`, is the logistic function of `p` on
    every extended real. -/
theorem logistic_eq_quotient (p : EReal) :
    Ideal.div (Ideal.ofBits .f32 0x3F800000#32) (Ideal.ofBits .f32 0x3F800000#32 + Ideal.exp (-p)) = Ideal.logistic p := by
  rw [Ideal.ofBits_one_f32]
  rfl

end Cert.Lstm

end
-- ==== Proof.GateBlock.lean ====
/-
  The kernel body's arithmetic, read at one entry of a block.

  The body works on a block of 512 batch rows.  Each gate's pre-activation there is two contractions against the rows of a
  weight matrix — the block of `x` and the block of `h`, each narrowed to bf16 (the identity on exact numbers), each into a
  zero accumulator — added, plus the gate's bias, a length-1024 vector laid as one row and repeated down the block.  So at
  row `p` of the block and unit `q` it is

      (Σ_k xblk[p,k] · wx[q,k] + Σ_k hblk[p,k] · wh[q,k]) + b[q].

  The rest of the body is entry by entry: logistic and hyperbolic tangent, products and one sum.
-/
import proofs.«101882_j5909875000082_2_alg».proof.Proof.Gen.KernelIdeal.Skeleton
import proofs.«101882_j5909875000082_2_alg».proof.Proof.LibDotNT
import proofs.«101882_j5909875000082_2_alg».proof.Proof.Cell
import Idealize.ShloMosaic.Lib.Pipeline.Value
import Idealize.ShloMosaic.Lib.ValueLayout

noncomputable section

open scoped BigOperators

namespace Cert.Lstm.Block

open Cert.KernelIdeal Cert.KernelIdeal.Gen Idealize.ShloMosaic Idealize.ShloMosaic.ValueIdx

/-- The body's contraction record: a 512×1024 operand against a 1024×1024 operand, the second axis of each contracted. -/
abbrev D := dot_S512x1024_S1024x1024_S512x1024_1_1_0_0_n_n

theorem D_l0 (j : S512x1024.Idx) (k : D.contr.Idx) : (D.lhsIdx j k 0).val = (j 0).val := by
  unfold DotDims.lhsIdx
  rw [dif_neg (show ¬(0 : Fin S512x1024.rank) ∈ D.lhsBatch by decide), dif_pos (show (0 : Fin S512x1024.rank) ∈ D.lhsNonContracting by decide)]
  rfl

theorem D_l1 (j : S512x1024.Idx) (k : D.contr.Idx) : (D.lhsIdx j k 1).val = (k ⟨0, by decide⟩).val :=
  D.lhsIdx_val_of_single rfl j k

theorem D_r0 (j : S512x1024.Idx) (k : D.contr.Idx) : (D.rhsIdx j k 0).val = (j 1).val := by
  unfold DotDims.rhsIdx
  rw [dif_neg (show ¬(0 : Fin S1024x1024.rank) ∈ D.rhsBatch by decide), dif_pos (show (0 : Fin S1024x1024.rank) ∈ D.rhsNonContracting by decide)]
  rfl

theorem D_r1 (j : S512x1024.Idx) (k : D.contr.Idx) : (D.rhsIdx j k 1).val = (k ⟨0, by decide⟩).val :=
  D.rhsIdx_val_of_single rfl j k

/-- One contraction of the body at row `p`, unit `q`: row `p` of the left operand against row `q` of the weights. -/
theorem contract_at (l : FVec Ideal S512x1024 .bf16) (w : FVec Ideal S1024x1024 .bf16) (p : Fin 512) (q : Fin 1024) :
    matmul D none l w (constant (F := Ideal) S512x1024 .f32 0x00000000#32) (ix2 p q)
      = ∑ k : Fin 1024, l (ix2 p k) * w (ix2 q k) :=
  Cert.Lib.DotNT.matmul_zero_apply D rfl rfl D_l0 D_l1 D_r0 D_r1 none l w (ix2 p q)

/-- A bias vector laid as one row and repeated down the block reads, at row `p` and unit `q`, its entry `q`. -/
theorem bias_row_at (b : FVec Ideal S1024 .f32) (p : Fin 512) (q : Fin 1024) :
    broadcastTo S512x1024 (shapeCast S1x1024 (shapeCast S1024 b shapeCasts_S1024_S1024) shapeCasts_S1024_S1x1024)
      broadcasts_S1x1024_S512x1024 (ix2 p q) = b (ix1 q) :=
  (broadcastTo_1b_ab_apply _ broadcasts_S1x1024_S512x1024 p q).trans
    ((shapeCast_a_1a_apply _ shapeCasts_S1024_S1x1024 (0 : Fin 1) q).trans
      (congrFun (shapeCast_self b shapeCasts_S1024_S1024) (ix1 q)))

/-- The two contractions of one gate, added. -/
def twoProj (x0 x1 : FVec Ideal S512x1024 .f32) (w u : FVec Ideal S1024x1024 .bf16) (p : Fin 512) (q : Fin 1024) : EReal :=
  (∑ k : Fin 1024, x0 (ix2 p k) * w (ix2 q k)) + ∑ k : Fin 1024, x1 (ix2 p k) * u (ix2 q k)

/-- The candidate gate's two contractions (its bias is added later in the body). -/
theorem pay7_at (x0 x1 : FVec Ideal S512x1024 .f32) (w u : FVec Ideal S1024x1024 .bf16) (p : Fin 512) (q : Fin 1024) :
    k0_pay7 (F := Ideal) x0 x1 w u (ix2 p q) = twoProj x0 x1 w u p q := by
  unfold k0_pay7 k0_pay3 k0_pay4
  show matmul D none (truncf .bf16 x0 bitsLt_bf16_f32) (shapeCast S1024x1024 w shapeCasts_S1024x1024_S1024x1024)
        (constant (F := Ideal) S512x1024 .f32 0x00000000#32) (ix2 p q)
      + matmul D none (truncf .bf16 x1 bitsLt_bf16_f32) (shapeCast S1024x1024 u shapeCasts_S1024x1024_S1024x1024)
        (constant (F := Ideal) S512x1024 .f32 0x00000000#32) (ix2 p q) = _
  rw [shapeCast_self w, shapeCast_self u, contract_at, contract_at]
  rfl

/-- The input gate's pre-activation: the two contractions plus the bias row. -/
theorem pay5_at (x0 x1 : FVec Ideal S512x1024 .f32) (w u : FVec Ideal S1024x1024 .bf16) (b : FVec Ideal S1024 .f32)
    (p : Fin 512) (q : Fin 1024) :
    k0_pay5 (F := Ideal) x0 x1 w u b (ix2 p q) = twoProj x0 x1 w u p q + b (ix1 q) := by
  unfold k0_pay5 k0_pay3 k0_pay4
  show (matmul D none (truncf .bf16 x0 bitsLt_bf16_f32) (shapeCast S1024x1024 w shapeCasts_S1024x1024_S1024x1024)
        (constant (F := Ideal) S512x1024 .f32 0x00000000#32) (ix2 p q)
      + matmul D none (truncf .bf16 x1 bitsLt_bf16_f32) (shapeCast S1024x1024 u shapeCasts_S1024x1024_S1024x1024)
        (constant (F := Ideal) S512x1024 .f32 0x00000000#32) (ix2 p q))
      + broadcastTo S512x1024 (shapeCast S1x1024 (shapeCast S1024 b shapeCasts_S1024_S1024) shapeCasts_S1024_S1x1024)
          broadcasts_S1x1024_S512x1024 (ix2 p q) = _
  rw [shapeCast_self w, shapeCast_self u, contract_at, contract_at, bias_row_at]
  rfl

/-- The forget gate's pre-activation: the same shape. -/
theorem pay6_at (x0 x1 : FVec Ideal S512x1024 .f32) (w u : FVec Ideal S1024x1024 .bf16) (b : FVec Ideal S1024 .f32)
    (p : Fin 512) (q : Fin 1024) :
    k0_pay6 (F := Ideal) x0 x1 w u b (ix2 p q) = twoProj x0 x1 w u p q + b (ix1 q) := by
  unfold k0_pay6 k0_pay3 k0_pay4
  show (matmul D none (truncf .bf16 x0 bitsLt_bf16_f32) (shapeCast S1024x1024 w shapeCasts_S1024x1024_S1024x1024)
        (constant (F := Ideal) S512x1024 .f32 0x00000000#32) (ix2 p q)
      + matmul D none (truncf .bf16 x1 bitsLt_bf16_f32) (shapeCast S1024x1024 u shapeCasts_S1024x1024_S1024x1024)
        (constant (F := Ideal) S512x1024 .f32 0x00000000#32) (ix2 p q))
      + broadcastTo S512x1024 (shapeCast S1x1024 (shapeCast S1024 b shapeCasts_S1024_S1024) shapeCasts_S1024_S1x1024)
          broadcasts_S1x1024_S512x1024 (ix2 p q) = _
  rw [shapeCast_self w, shapeCast_self u, contract_at, contract_at, bias_row_at]
  rfl

/-- The new cell state the body stores, at row `p`, unit `q`, from the three pre-activation blocks (the candidate's still
    without its bias `bg`) and the old cell state's block. -/
theorem pay1_at (vi vf vg : FVec Ideal S512x1024 .f32) (bg : FVec Ideal S1024 .f32) (c0 : FVec Ideal S512x1024 .f32)
    (p : Fin 512) (q : Fin 1024) :
    k0_pay1 (F := Ideal) vi vf vg bg c0 (ix2 p q)
      = Cert.Lstm.cellOf (vi (ix2 p q)) (vf (ix2 p q)) (vg (ix2 p q) + bg (ix1 q)) (c0 (ix2 p q)) := by
  unfold k0_pay1
  show Ideal.logistic (vf (ix2 p q)) * c0 (ix2 p q) + Ideal.logistic (vi (ix2 p q)) * Ideal.tanh (vg (ix2 p q)
      + broadcastTo S512x1024 (shapeCast S1x1024 (shapeCast S1024 bg shapeCasts_S1024_S1024) shapeCasts_S1024_S1x1024)
          broadcasts_S1x1024_S512x1024 (ix2 p q)) = _
  rw [bias_row_at]
  rfl

/-- The new hidden state the body stores: the output gate's pre-activation is formed in place from the narrowed blocks. -/
theorem pay2_at (x0 x1 : FVec Ideal S512x1024 .f32) (vi vf vg : FVec Ideal S512x1024 .f32) (bg : FVec Ideal S1024 .f32)
    (w u : FVec Ideal S1024x1024 .bf16) (bo : FVec Ideal S1024 .f32) (c0 : FVec Ideal S512x1024 .f32)
    (p : Fin 512) (q : Fin 1024) :
    k0_pay2 (F := Ideal) (k0_pay3 x0) (k0_pay4 x1) vi vf vg bg w u bo c0 (ix2 p q)
      = Cert.Lstm.hiddenOf (twoProj x0 x1 w u p q + bo (ix1 q)) (k0_pay1 (F := Ideal) vi vf vg bg c0 (ix2 p q)) := by
  unfold k0_pay2 k0_pay3 k0_pay4
  show Ideal.logistic ((matmul D none (truncf .bf16 x0 bitsLt_bf16_f32) (shapeCast S1024x1024 w shapeCasts_S1024x1024_S1024x1024)
        (constant (F := Ideal) S512x1024 .f32 0x00000000#32) (ix2 p q)
      + matmul D none (truncf .bf16 x1 bitsLt_bf16_f32) (shapeCast S1024x1024 u shapeCasts_S1024x1024_S1024x1024)
        (constant (F := Ideal) S512x1024 .f32 0x00000000#32) (ix2 p q))
      + broadcastTo S512x1024 (shapeCast S1x1024 (shapeCast S1024 bo shapeCasts_S1024_S1024) shapeCasts_S1024_S1x1024)
          broadcasts_S1x1024_S512x1024 (ix2 p q)) * Ideal.tanh (k0_pay1 (F := Ideal) vi vf vg bg c0 (ix2 p q)) = _
  rw [shapeCast_self w, shapeCast_self u, contract_at, contract_at, bias_row_at]
  rfl

end Cert.Lstm.Block

end
-- ==== Proof.BlockCell.lean ====
/-
  A block of the kernel computes the cell on its own rows.

  Suppose the three activation blocks at hand are rows `row p` (`p < 512`) of the arrays `x`, `h`, `c`; the eight weight
  operands are, entry by entry, the eight weight matrices; and each bias operand is the sum of its gate's two biases.
  Then what the body stores at row `p`, unit `q`, is the new cell state, respectively the new hidden state, of batch row
  `row p` at unit `q`: each contraction runs over the same 1024 products, and the rest is entry by entry.
-/
import proofs.«101882_j5909875000082_2_alg».proof.Proof.GateBlock

noncomputable section

open scoped BigOperators

namespace Cert.Lstm.Block

open Cert.KernelIdeal Cert.KernelIdeal.Gen Idealize.ShloMosaic Idealize.ShloMosaic.ValueIdx
open Cert.Lstm

/-- A gate's two contractions over a block whose rows are rows `row p` of the arrays. -/
theorem twoProj_rows (X H : Acts) (wx wh : Wts) (row : Fin 512 → Fin 8192)
    (x0 x1 : FVec Ideal S512x1024 .f32) (w u : FVec Ideal S1024x1024 .bf16)
    (hx : ∀ (p : Fin 512) (k : Fin 1024), x0 (ix2 p k) = X (ix2 (row p) k))
    (hh : ∀ (p : Fin 512) (k : Fin 1024), x1 (ix2 p k) = H (ix2 (row p) k))
    (hw : ∀ (q k : Fin 1024), w (ix2 q k) = wx (ix2 q k))
    (hu : ∀ (q k : Fin 1024), u (ix2 q k) = wh (ix2 q k))
    (p : Fin 512) (q : Fin 1024) :
    twoProj x0 x1 w u p q = proj X wx (row p) q + proj H wh (row p) q := by
  unfold twoProj proj
  exact congrArg₂ (fun a b : EReal => a + b)
    (Finset.sum_congr rfl fun k _ => by rw [hx, hw])
    (Finset.sum_congr rfl fun k _ => by rw [hh, hu])

section

variable (P : Params) (row : Fin 512 → Fin 8192)
  (x0 x1 x2 : FVec Ideal S512x1024 .f32)
  (w3 w4 w5 w6 w7 w8 w9 w10 : FVec Ideal S1024x1024 .bf16)
  (b11 b12 b13 b14 : FVec Ideal S1024 .f32)
  (hx : ∀ (p : Fin 512) (k : Fin 1024), x0 (ix2 p k) = P.x (ix2 (row p) k))
  (hh : ∀ (p : Fin 512) (k : Fin 1024), x1 (ix2 p k) = P.h (ix2 (row p) k))
  (hc : ∀ (p : Fin 512) (q : Fin 1024), x2 (ix2 p q) = P.c (ix2 (row p) q))
  (h3 : ∀ (q k : Fin 1024), w3 (ix2 q k) = P.wxi (ix2 q k))
  (h4 : ∀ (q k : Fin 1024), w4 (ix2 q k) = P.wxf (ix2 q k))
  (h5 : ∀ (q k : Fin 1024), w5 (ix2 q k) = P.wxg (ix2 q k))
  (h6 : ∀ (q k : Fin 1024), w6 (ix2 q k) = P.wxo (ix2 q k))
  (h7 : ∀ (q k : Fin 1024), w7 (ix2 q k) = P.whi (ix2 q k))
  (h8 : ∀ (q k : Fin 1024), w8 (ix2 q k) = P.whf (ix2 q k))
  (h9 : ∀ (q k : Fin 1024), w9 (ix2 q k) = P.whg (ix2 q k))
  (h10 : ∀ (q k : Fin 1024), w10 (ix2 q k) = P.who (ix2 q k))
  (h11 : ∀ q : Fin 1024, b11 (ix1 q) = P.bxi (ix1 q) + P.bhi (ix1 q))
  (h12 : ∀ q : Fin 1024, b12 (ix1 q) = P.bxf (ix1 q) + P.bhf (ix1 q))
  (h13 : ∀ q : Fin 1024, b13 (ix1 q) = P.bxg (ix1 q) + P.bhg (ix1 q))
  (h14 : ∀ q : Fin 1024, b14 (ix1 q) = P.bxo (ix1 q) + P.bho (ix1 q))

include hx hh hc h3 h4 h5 h7 h8 h9 h11 h12 h13 in
/-- The cell state the body stores at row `p`, unit `q`, is the new cell state of batch row `row p`. -/
theorem cell_block (p : Fin 512) (q : Fin 1024) :
    k0_pay1 (F := Ideal) (k0_pay5 x0 x1 w3 w7 b11) (k0_pay6 x0 x1 w4 w8 b12) (k0_pay7 x0 x1 w5 w9) b13 x2 (ix2 p q)
      = cellAt P (row p) q := by
  rw [pay1_at, pay5_at, pay6_at, pay7_at,
    twoProj_rows P.x P.h P.wxi P.whi row x0 x1 w3 w7 hx hh h3 h7,
    twoProj_rows P.x P.h P.wxf P.whf row x0 x1 w4 w8 hx hh h4 h8,
    twoProj_rows P.x P.h P.wxg P.whg row x0 x1 w5 w9 hx hh h5 h9,
    h11, h12, h13, hc]
  rfl

include hx hh hc h3 h4 h5 h6 h7 h8 h9 h10 h11 h12 h13 h14 in
/-- The hidden state the body stores at row `p`, unit `q`, is the new hidden state of batch row `row p`. -/
theorem hidden_block (p : Fin 512) (q : Fin 1024) :
    k0_pay2 (F := Ideal) (k0_pay3 x0) (k0_pay4 x1) (k0_pay5 x0 x1 w3 w7 b11) (k0_pay6 x0 x1 w4 w8 b12) (k0_pay7 x0 x1 w5 w9)
        b13 w6 w10 b14 x2 (ix2 p q)
      = hiddenAt P (row p) q := by
  rw [pay2_at,
    cell_block P row x0 x1 x2 w3 w4 w5 w7 w8 w9 b11 b12 b13 hx hh hc h3 h4 h5 h7 h8 h9 h11 h12 h13,
    twoProj_rows P.x P.h P.wxo P.who row x0 x1 w6 w10 hx hh h6 h10, h14]
  rfl

end

end Cert.Lstm.Block

end
-- ==== Proof.RegionArrays.lean ====
/-
  What the region finds in the arrays the host prepared for it.

  Before the kernel is launched the host narrows each of the eight weight matrices to bf16 — on exact numbers a change of
  float format is the identity, so each narrowed array is entry by entry the weight matrix it came from — and adds the
  two biases of each gate into one vector.  These are the twelve arrays, besides `x`, `h` and `c` themselves, that the
  kernel's windows stage.
-/
import proofs.«101882_j5909875000082_2_alg».proof.Proof.Gen.KernelIdeal.Frame
import Idealize.ShloMosaic.Lib.StableHlo.Run
import Idealize.ShloMosaic.PureOps.Ideal

noncomputable section

namespace Cert.Lstm.Region

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

/-- The narrowed copy `main_v0` is, entry by entry, the weight matrix `main_arg3`. -/
theorem found_main_v0 (c : Dev nD) :
    @Eq (S1024x1024.Idx → EReal) (V m c main_v0) (m ((c : Thread nD τ).loc main_arg3)) := by
  dsimp only [Gen.V, Gen.hostOps0]; after_results; rfl

/-- The narrowed copy `main_v1` is, entry by entry, the weight matrix `main_arg7`. -/
theorem found_main_v1 (c : Dev nD) :
    @Eq (S1024x1024.Idx → EReal) (V m c main_v1) (m ((c : Thread nD τ).loc main_arg7)) := by
  dsimp only [Gen.V, Gen.hostOps0]; after_results; rfl

/-- The narrowed copy `main_v2` is, entry by entry, the weight matrix `main_arg11`. -/
theorem found_main_v2 (c : Dev nD) :
    @Eq (S1024x1024.Idx → EReal) (V m c main_v2) (m ((c : Thread nD τ).loc main_arg11)) := by
  dsimp only [Gen.V, Gen.hostOps0]; after_results; rfl

/-- The narrowed copy `main_v3` is, entry by entry, the weight matrix `main_arg15`. -/
theorem found_main_v3 (c : Dev nD) :
    @Eq (S1024x1024.Idx → EReal) (V m c main_v3) (m ((c : Thread nD τ).loc main_arg15)) := by
  dsimp only [Gen.V, Gen.hostOps0]; after_results; rfl

/-- The narrowed copy `main_v4` is, entry by entry, the weight matrix `main_arg5`. -/
theorem found_main_v4 (c : Dev nD) :
    @Eq (S1024x1024.Idx → EReal) (V m c main_v4) (m ((c : Thread nD τ).loc main_arg5)) := by
  dsimp only [Gen.V, Gen.hostOps0]; after_results; rfl

/-- The narrowed copy `main_v5` is, entry by entry, the weight matrix `main_arg9`. -/
theorem found_main_v5 (c : Dev nD) :
    @Eq (S1024x1024.Idx → EReal) (V m c main_v5) (m ((c : Thread nD τ).loc main_arg9)) := by
  dsimp only [Gen.V, Gen.hostOps0]; after_results; rfl

/-- The narrowed copy `main_v6` is, entry by entry, the weight matrix `main_arg13`. -/
theorem found_main_v6 (c : Dev nD) :
    @Eq (S1024x1024.Idx → EReal) (V m c main_v6) (m ((c : Thread nD τ).loc main_arg13)) := by
  dsimp only [Gen.V, Gen.hostOps0]; after_results; rfl

/-- The narrowed copy `main_v7` is, entry by entry, the weight matrix `main_arg17`. -/
theorem found_main_v7 (c : Dev nD) :
    @Eq (S1024x1024.Idx → EReal) (V m c main_v7) (m ((c : Thread nD τ).loc main_arg17)) := by
  dsimp only [Gen.V, Gen.hostOps0]; after_results; rfl

/-- The summed bias `main_v8` is the entrywise sum of the bias vectors `main_arg4` and `main_arg6`. -/
theorem found_main_v8 (c : Dev nD) :
    @Eq (S1024.Idx → EReal) (V m c main_v8)
      (addf (F := Ideal) (s := S1024) (φ := .f32) (m ((c : Thread nD τ).loc main_arg4)) (m ((c : Thread nD τ).loc main_arg6))) := by
  dsimp only [Gen.V, Gen.hostOps0]; after_results

/-- The summed bias `main_v9` is the entrywise sum of the bias vectors `main_arg8` and `main_arg10`. -/
theorem found_main_v9 (c : Dev nD) :
    @Eq (S1024.Idx → EReal) (V m c main_v9)
      (addf (F := Ideal) (s := S1024) (φ := .f32) (m ((c : Thread nD τ).loc main_arg8)) (m ((c : Thread nD τ).loc main_arg10))) := by
  dsimp only [Gen.V, Gen.hostOps0]; after_results

/-- The summed bias `main_v10` is the entrywise sum of the bias vectors `main_arg12` and `main_arg14`. -/
theorem found_main_v10 (c : Dev nD) :
    @Eq (S1024.Idx → EReal) (V m c main_v10)
      (addf (F := Ideal) (s := S1024) (φ := .f32) (m ((c : Thread nD τ).loc main_arg12)) (m ((c : Thread nD τ).loc main_arg14))) := by
  dsimp only [Gen.V, Gen.hostOps0]; after_results

/-- The summed bias `main_v11` is the entrywise sum of the bias vectors `main_arg16` and `main_arg18`. -/
theorem found_main_v11 (c : Dev nD) :
    @Eq (S1024.Idx → EReal) (V m c main_v11)
      (addf (F := Ideal) (s := S1024) (φ := .f32) (m ((c : Thread nD τ).loc main_arg16)) (m ((c : Thread nD τ).loc main_arg18))) := by
  dsimp only [Gen.V, Gen.hostOps0]; after_results

end Cert.Lstm.Region

end
-- ==== Proof.KernelArrays.lean ====
/-
  The kernel's two result arrays.

  The grid has 16 points; at point `t` the windows of `x`, `h`, `c` and of the two results hold rows `512·t … 512·t + 511`
  of their arrays, while the eight narrowed weight matrices and the four summed biases are staged whole.  So what point `t`
  writes back is, entry by entry, the new hidden state and the new cell state of those 512 batch rows; the 16 blocks tile
  the 8192 rows, the point covering row `r` being `r / 512`; hence each result array ends as the whole-array function.
-/
import proofs.«101882_j5909875000082_2_alg».proof.Proof.Gen.KernelIdeal.Value
import proofs.«101882_j5909875000082_2_alg».proof.Proof.BlockCell
import proofs.«101882_j5909875000082_2_alg».proof.Proof.RegionArrays

noncomputable section

namespace Cert.Lstm.Kernel

open Cert.KernelIdeal Cert.KernelIdeal.Gen Idealize.ShloMosaic Idealize.ShloMosaic.TcCoe Idealize.SL.Sem
open Idealize.ShloMosaic.ValueIdx
open Idealize.ShloMosaic.Pipeline (Dat)
open Cert.Lstm

variable (m : (ℓ : Loc nD τ sig) → Buf (Elt Ideal) ℓ) (ρ : Dev nD → PrngReg)

/-- The nineteen arrays core `c` is launched with. -/
def params (c : Dev nD) : Params :=
  ⟨m ((c : Thread nD τ).loc main_arg0),
   m ((c : Thread nD τ).loc main_arg1),
   m ((c : Thread nD τ).loc main_arg2),
   m ((c : Thread nD τ).loc main_arg3),
   m ((c : Thread nD τ).loc main_arg4),
   m ((c : Thread nD τ).loc main_arg5),
   m ((c : Thread nD τ).loc main_arg6),
   m ((c : Thread nD τ).loc main_arg7),
   m ((c : Thread nD τ).loc main_arg8),
   m ((c : Thread nD τ).loc main_arg9),
   m ((c : Thread nD τ).loc main_arg10),
   m ((c : Thread nD τ).loc main_arg11),
   m ((c : Thread nD τ).loc main_arg12),
   m ((c : Thread nD τ).loc main_arg13),
   m ((c : Thread nD τ).loc main_arg14),
   m ((c : Thread nD τ).loc main_arg15),
   m ((c : Thread nD τ).loc main_arg16),
   m ((c : Thread nD τ).loc main_arg17),
   m ((c : Thread nD τ).loc main_arg18)⟩

theorem zeros2 : (![0, 0] : Fin 2 → Nat) = fun _ => 0 := funext fun a => by fin_cases a <;> rfl

theorem zeros1 : (![0] : Fin 1 → Nat) = fun _ => 0 := funext fun a => by fin_cases a; rfl

/-! ## Where the windows sit at a grid point -/

/-- The printed index maps, decided over the 16 points: the five row-blocked windows are at block row `t`, every other
    window at block 0. -/
theorem index_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_15.index t (0 : Fin 2) = t.val ∧ win0_15.index t (1 : Fin 2) = 0)
    ∧ (win0_16.index t (0 : Fin 2) = t.val ∧ win0_16.index t (1 : Fin 2) = 0) :=
  (by decide +kernel : ∀ t : Fin grid0.N, _)

theorem whole_facts : ∀ t : Fin cfg0.N,
    (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ win0_11.index t (0 : Fin 1) = 0 ∧ win0_12.index t (0 : Fin 1) = 0
    ∧ win0_13.index t (0 : Fin 1) = 0 ∧ win0_14.index t (0 : Fin 1) = 0 :=
  (by decide +kernel : ∀ t : Fin grid0.N, _)

theorem point_lt (t : Fin cfg0.N) : t.val < 16 := lt_of_lt_of_eq t.isLt N_0

/-- Batch row `512·t + p`: row `p` of the block at point `t`. -/
def row (t : Fin cfg0.N) (p : Fin 512) : Fin 8192 :=
  ⟨512 * t.val + p.val, by have := point_lt t; have := p.isLt; omega⟩

/-- Entry `(p, k)` of window 0's block at point `t` is entry `(512·t + p, k)` of its array. -/
theorem emb_rows0 (t : Fin cfg0.N) (p : Fin 512) (k : Fin 1024) :
    ((cfg0.win 0).blk t).view.emb (ix2 p k) = ix2 (row t p) k := by
  obtain ⟨e0, e1, e2, e15, e16⟩ := index_facts t
  funext a; apply Fin.ext
  match a with
  | ⟨0, _⟩ => show win0_0.index t (0 : Fin 2) * 512 + 1 * p.val = 512 * t.val + p.val; have := e0.1; omega
  | ⟨1, _⟩ => show win0_0.index t (1 : Fin 2) * 1024 + 1 * k.val = k.val; have := e0.2; omega

/-- Entry `(p, k)` of window 1's block at point `t` is entry `(512·t + p, k)` of its array. -/
theorem emb_rows1 (t : Fin cfg0.N) (p : Fin 512) (k : Fin 1024) :
    ((cfg0.win 1).blk t).view.emb (ix2 p k) = ix2 (row t p) k := by
  obtain ⟨e0, e1, e2, e15, e16⟩ := index_facts t
  funext a; apply Fin.ext
  match a with
  | ⟨0, _⟩ => show win0_1.index t (0 : Fin 2) * 512 + 1 * p.val = 512 * t.val + p.val; have := e1.1; omega
  | ⟨1, _⟩ => show win0_1.index t (1 : Fin 2) * 1024 + 1 * k.val = k.val; have := e1.2; omega

/-- Entry `(p, k)` of window 2's block at point `t` is entry `(512·t + p, k)` of its array. -/
theorem emb_rows2 (t : Fin cfg0.N) (p : Fin 512) (k : Fin 1024) :
    ((cfg0.win 2).blk t).view.emb (ix2 p k) = ix2 (row t p) k := by
  obtain ⟨e0, e1, e2, e15, e16⟩ := index_facts t
  funext a; apply Fin.ext
  match a with
  | ⟨0, _⟩ => show win0_2.index t (0 : Fin 2) * 512 + 1 * p.val = 512 * t.val + p.val; have := e2.1; omega
  | ⟨1, _⟩ => show win0_2.index t (1 : Fin 2) * 1024 + 1 * k.val = k.val; have := e2.2; omega

/-- Entry `(p, k)` of window 15's block at point `t` is entry `(512·t + p, k)` of its array. -/
theorem emb_rows15 (t : Fin cfg0.N) (p : Fin 512) (k : Fin 1024) :
    ((cfg0.win 15).blk t).view.emb (ix2 p k) = ix2 (row t p) k := by
  obtain ⟨e0, e1, e2, e15, e16⟩ := index_facts t
  funext a; apply Fin.ext
  match a with
  | ⟨0, _⟩ => show win0_15.index t (0 : Fin 2) * 512 + 1 * p.val = 512 * t.val + p.val; have := e15.1; omega
  | ⟨1, _⟩ => show win0_15.index t (1 : Fin 2) * 1024 + 1 * k.val = k.val; have := e15.2; omega

/-- Entry `(p, k)` of window 16's block at point `t` is entry `(512·t + p, k)` of its array. -/
theorem emb_rows16 (t : Fin cfg0.N) (p : Fin 512) (k : Fin 1024) :
    ((cfg0.win 16).blk t).view.emb (ix2 p k) = ix2 (row t p) k := by
  obtain ⟨e0, e1, e2, e15, e16⟩ := index_facts t
  funext a; apply Fin.ext
  match a with
  | ⟨0, _⟩ => show win0_16.index t (0 : Fin 2) * 512 + 1 * p.val = 512 * t.val + p.val; have := e16.1; omega
  | ⟨1, _⟩ => show win0_16.index t (1 : Fin 2) * 1024 + 1 * k.val = k.val; have := e16.2; omega

theorem emb_whole3 (t : Fin cfg0.N) (q k : Fin 1024) :
    ((cfg0.win 3).blk t).view.emb (ix2 q k) = ix2 q k := by
  obtain ⟨f3, f4, f5, f6, f7, f8, f9, f10, f11, f12, f13, f14⟩ := whole_facts t
  funext a; apply Fin.ext
  match a with
  | ⟨0, _⟩ => show win0_3.index t (0 : Fin 2) * 1024 + 1 * q.val = q.val; have := f3.1; omega
  | ⟨1, _⟩ => show win0_3.index t (1 : Fin 2) * 1024 + 1 * k.val = k.val; have := f3.2; omega

theorem emb_whole4 (t : Fin cfg0.N) (q k : Fin 1024) :
    ((cfg0.win 4).blk t).view.emb (ix2 q k) = ix2 q k := by
  obtain ⟨f3, f4, f5, f6, f7, f8, f9, f10, f11, f12, f13, f14⟩ := whole_facts t
  funext a; apply Fin.ext
  match a with
  | ⟨0, _⟩ => show win0_4.index t (0 : Fin 2) * 1024 + 1 * q.val = q.val; have := f4.1; omega
  | ⟨1, _⟩ => show win0_4.index t (1 : Fin 2) * 1024 + 1 * k.val = k.val; have := f4.2; omega

theorem emb_whole5 (t : Fin cfg0.N) (q k : Fin 1024) :
    ((cfg0.win 5).blk t).view.emb (ix2 q k) = ix2 q k := by
  obtain ⟨f3, f4, f5, f6, f7, f8, f9, f10, f11, f12, f13, f14⟩ := whole_facts t
  funext a; apply Fin.ext
  match a with
  | ⟨0, _⟩ => show win0_5.index t (0 : Fin 2) * 1024 + 1 * q.val = q.val; have := f5.1; omega
  | ⟨1, _⟩ => show win0_5.index t (1 : Fin 2) * 1024 + 1 * k.val = k.val; have := f5.2; omega

theorem emb_whole6 (t : Fin cfg0.N) (q k : Fin 1024) :
    ((cfg0.win 6).blk t).view.emb (ix2 q k) = ix2 q k := by
  obtain ⟨f3, f4, f5, f6, f7, f8, f9, f10, f11, f12, f13, f14⟩ := whole_facts t
  funext a; apply Fin.ext
  match a with
  | ⟨0, _⟩ => show win0_6.index t (0 : Fin 2) * 1024 + 1 * q.val = q.val; have := f6.1; omega
  | ⟨1, _⟩ => show win0_6.index t (1 : Fin 2) * 1024 + 1 * k.val = k.val; have := f6.2; omega

theorem emb_whole7 (t : Fin cfg0.N) (q k : Fin 1024) :
    ((cfg0.win 7).blk t).view.emb (ix2 q k) = ix2 q k := by
  obtain ⟨f3, f4, f5, f6, f7, f8, f9, f10, f11, f12, f13, f14⟩ := whole_facts t
  funext a; apply Fin.ext
  match a with
  | ⟨0, _⟩ => show win0_7.index t (0 : Fin 2) * 1024 + 1 * q.val = q.val; have := f7.1; omega
  | ⟨1, _⟩ => show win0_7.index t (1 : Fin 2) * 1024 + 1 * k.val = k.val; have := f7.2; omega

theorem emb_whole8 (t : Fin cfg0.N) (q k : Fin 1024) :
    ((cfg0.win 8).blk t).view.emb (ix2 q k) = ix2 q k := by
  obtain ⟨f3, f4, f5, f6, f7, f8, f9, f10, f11, f12, f13, f14⟩ := whole_facts t
  funext a; apply Fin.ext
  match a with
  | ⟨0, _⟩ => show win0_8.index t (0 : Fin 2) * 1024 + 1 * q.val = q.val; have := f8.1; omega
  | ⟨1, _⟩ => show win0_8.index t (1 : Fin 2) * 1024 + 1 * k.val = k.val; have := f8.2; omega

theorem emb_whole9 (t : Fin cfg0.N) (q k : Fin 1024) :
    ((cfg0.win 9).blk t).view.emb (ix2 q k) = ix2 q k := by
  obtain ⟨f3, f4, f5, f6, f7, f8, f9, f10, f11, f12, f13, f14⟩ := whole_facts t
  funext a; apply Fin.ext
  match a with
  | ⟨0, _⟩ => show win0_9.index t (0 : Fin 2) * 1024 + 1 * q.val = q.val; have := f9.1; omega
  | ⟨1, _⟩ => show win0_9.index t (1 : Fin 2) * 1024 + 1 * k.val = k.val; have := f9.2; omega

theorem emb_whole10 (t : Fin cfg0.N) (q k : Fin 1024) :
    ((cfg0.win 10).blk t).view.emb (ix2 q k) = ix2 q k := by
  obtain ⟨f3, f4, f5, f6, f7, f8, f9, f10, f11, f12, f13, f14⟩ := whole_facts t
  funext a; apply Fin.ext
  match a with
  | ⟨0, _⟩ => show win0_10.index t (0 : Fin 2) * 1024 + 1 * q.val = q.val; have := f10.1; omega
  | ⟨1, _⟩ => show win0_10.index t (1 : Fin 2) * 1024 + 1 * k.val = k.val; have := f10.2; omega

theorem emb_vec11 (t : Fin cfg0.N) (q : Fin 1024) :
    ((cfg0.win 11).blk t).view.emb (ix1 q) = ix1 q := by
  obtain ⟨f3, f4, f5, f6, f7, f8, f9, f10, f11, f12, f13, f14⟩ := whole_facts t
  funext a; apply Fin.ext
  match a with
  | ⟨0, _⟩ => show win0_11.index t (0 : Fin 1) * 1024 + 1 * q.val = q.val; have := f11; omega

theorem emb_vec12 (t : Fin cfg0.N) (q : Fin 1024) :
    ((cfg0.win 12).blk t).view.emb (ix1 q) = ix1 q := by
  obtain ⟨f3, f4, f5, f6, f7, f8, f9, f10, f11, f12, f13, f14⟩ := whole_facts t
  funext a; apply Fin.ext
  match a with
  | ⟨0, _⟩ => show win0_12.index t (0 : Fin 1) * 1024 + 1 * q.val = q.val; have := f12; omega

theorem emb_vec13 (t : Fin cfg0.N) (q : Fin 1024) :
    ((cfg0.win 13).blk t).view.emb (ix1 q) = ix1 q := by
  obtain ⟨f3, f4, f5, f6, f7, f8, f9, f10, f11, f12, f13, f14⟩ := whole_facts t
  funext a; apply Fin.ext
  match a with
  | ⟨0, _⟩ => show win0_13.index t (0 : Fin 1) * 1024 + 1 * q.val = q.val; have := f13; omega

theorem emb_vec14 (t : Fin cfg0.N) (q : Fin 1024) :
    ((cfg0.win 14).blk t).view.emb (ix1 q) = ix1 q := by
  obtain ⟨f3, f4, f5, f6, f7, f8, f9, f10, f11, f12, f13, f14⟩ := whole_facts t
  funext a; apply Fin.ext
  match a with
  | ⟨0, _⟩ => show win0_14.index t (0 : Fin 1) * 1024 + 1 * q.val = q.val; have := f14; omega

/-! ## What a point writes back -/

/-- Point `t` writes back block `t` of the new cell state. -/
theorem flushed_cell (c : Dev nD) (t : Fin cfg0.N) :
    (dats m 0 c).flushed 16 t = ((cfg0.win 16).blk t).view.read (Elt Ideal) (cellNext (params m c)) := by
  rw [Value.flushed16]
  unfold out0_16
  rw [View.canon_unit_zero zeros2]
  simp only [View.ld_unit_zero (S := S512x1024) zeros2, View.ld_unit_zero (S := S1024x1024) zeros2, View.ld_unit_zero (S := S1024) zeros1]
  funext y
  obtain ⟨p, q, rfl⟩ : ∃ (p : Fin 512) (q : Fin 1024), y = ix2 p q := ⟨y 0, y 1, eq_ix2 y⟩
  show k0_pay1 (F := Ideal) (k0_pay5 (iblk m c 0 t) (iblk m c 1 t) (iblk m c 3 t) (iblk m c 7 t) (iblk m c 11 t)) (k0_pay6 (iblk m c 0 t) (iblk m c 1 t) (iblk m c 4 t) (iblk m c 8 t) (iblk m c 12 t))
      (k0_pay7 (iblk m c 0 t) (iblk m c 1 t) (iblk m c 5 t) (iblk m c 9 t)) (iblk m c 13 t) (iblk m c 2 t) (ix2 p q)
    = cellNext (params m c) (((cfg0.win 16).blk t).view.emb (ix2 p q))
  rw [emb_rows16 t p q, cellNext_ix2]
  exact Block.cell_block (params m c) (row t) (iblk m c 0 t) (iblk m c 1 t) (iblk m c 2 t) (iblk m c 3 t) (iblk m c 4 t) (iblk m c 5 t) (iblk m c 7 t) (iblk m c 8 t) (iblk m c 9 t) (iblk m c 11 t) (iblk m c 12 t) (iblk m c 13 t)
    (fun p k => by
      show V m c main_arg0 (((cfg0.win 0).blk t).view.emb (ix2 p k)) = _
      rw [V_main_arg0, emb_rows0 t p k]; rfl)
    (fun p k => by
      show V m c main_arg1 (((cfg0.win 1).blk t).view.emb (ix2 p k)) = _
      rw [V_main_arg1, emb_rows1 t p k]; rfl)
    (fun p q => by
      show V m c main_arg2 (((cfg0.win 2).blk t).view.emb (ix2 p q)) = _
      rw [V_main_arg2, emb_rows2 t p q]; rfl)
    (fun q k => by
      show V m c main_v0 (((cfg0.win 3).blk t).view.emb (ix2 q k)) = _
      rw [Region.found_main_v0 m c, emb_whole3 t q k]; rfl)
    (fun q k => by
      show V m c main_v1 (((cfg0.win 4).blk t).view.emb (ix2 q k)) = _
      rw [Region.found_main_v1 m c, emb_whole4 t q k]; rfl)
    (fun q k => by
      show V m c main_v2 (((cfg0.win 5).blk t).view.emb (ix2 q k)) = _
      rw [Region.found_main_v2 m c, emb_whole5 t q k]; rfl)
    (fun q k => by
      show V m c main_v4 (((cfg0.win 7).blk t).view.emb (ix2 q k)) = _
      rw [Region.found_main_v4 m c, emb_whole7 t q k]; rfl)
    (fun q k => by
      show V m c main_v5 (((cfg0.win 8).blk t).view.emb (ix2 q k)) = _
      rw [Region.found_main_v5 m c, emb_whole8 t q k]; rfl)
    (fun q k => by
      show V m c main_v6 (((cfg0.win 9).blk t).view.emb (ix2 q k)) = _
      rw [Region.found_main_v6 m c, emb_whole9 t q k]; rfl)
    (fun q => by
      show V m c main_v8 (((cfg0.win 11).blk t).view.emb (ix1 q)) = _
      rw [Region.found_main_v8 m c, emb_vec11 t q]; rfl)
    (fun q => by
      show V m c main_v9 (((cfg0.win 12).blk t).view.emb (ix1 q)) = _
      rw [Region.found_main_v9 m c, emb_vec12 t q]; rfl)
    (fun q => by
      show V m c main_v10 (((cfg0.win 13).blk t).view.emb (ix1 q)) = _
      rw [Region.found_main_v10 m c, emb_vec13 t q]; rfl)
    p q

/-- Point `t` writes back block `t` of the new hidden state. -/
theorem flushed_hidden (c : Dev nD) (t : Fin cfg0.N) :
    (dats m 0 c).flushed 15 t = ((cfg0.win 15).blk t).view.read (Elt Ideal) (hiddenNext (params m c)) := by
  rw [Value.flushed15]
  unfold out0_15
  rw [View.canon_unit_zero zeros2]
  simp only [View.ld_unit_zero (S := S512x1024) zeros2, View.ld_unit_zero (S := S1024x1024) zeros2, View.ld_unit_zero (S := S1024) zeros1]
  funext y
  obtain ⟨p, q, rfl⟩ : ∃ (p : Fin 512) (q : Fin 1024), y = ix2 p q := ⟨y 0, y 1, eq_ix2 y⟩
  show k0_pay2 (F := Ideal) (k0_pay3 (iblk m c 0 t)) (k0_pay4 (iblk m c 1 t)) (k0_pay5 (iblk m c 0 t) (iblk m c 1 t) (iblk m c 3 t) (iblk m c 7 t) (iblk m c 11 t))
      (k0_pay6 (iblk m c 0 t) (iblk m c 1 t) (iblk m c 4 t) (iblk m c 8 t) (iblk m c 12 t)) (k0_pay7 (iblk m c 0 t) (iblk m c 1 t) (iblk m c 5 t) (iblk m c 9 t)) (iblk m c 13 t) (iblk m c 6 t) (iblk m c 10 t) (iblk m c 14 t) (iblk m c 2 t) (ix2 p q)
    = hiddenNext (params m c) (((cfg0.win 15).blk t).view.emb (ix2 p q))
  rw [emb_rows15 t p q, hiddenNext_ix2]
  exact Block.hidden_block (params m c) (row t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    (fun p k => by
      show V m c main_arg0 (((cfg0.win 0).blk t).view.emb (ix2 p k)) = _
      rw [V_main_arg0, emb_rows0 t p k]; rfl)
    (fun p k => by
      show V m c main_arg1 (((cfg0.win 1).blk t).view.emb (ix2 p k)) = _
      rw [V_main_arg1, emb_rows1 t p k]; rfl)
    (fun p q => by
      show V m c main_arg2 (((cfg0.win 2).blk t).view.emb (ix2 p q)) = _
      rw [V_main_arg2, emb_rows2 t p q]; rfl)
    (fun q k => by
      show V m c main_v0 (((cfg0.win 3).blk t).view.emb (ix2 q k)) = _
      rw [Region.found_main_v0 m c, emb_whole3 t q k]; rfl)
    (fun q k => by
      show V m c main_v1 (((cfg0.win 4).blk t).view.emb (ix2 q k)) = _
      rw [Region.found_main_v1 m c, emb_whole4 t q k]; rfl)
    (fun q k => by
      show V m c main_v2 (((cfg0.win 5).blk t).view.emb (ix2 q k)) = _
      rw [Region.found_main_v2 m c, emb_whole5 t q k]; rfl)
    (fun q k => by
      show V m c main_v3 (((cfg0.win 6).blk t).view.emb (ix2 q k)) = _
      rw [Region.found_main_v3 m c, emb_whole6 t q k]; rfl)
    (fun q k => by
      show V m c main_v4 (((cfg0.win 7).blk t).view.emb (ix2 q k)) = _
      rw [Region.found_main_v4 m c, emb_whole7 t q k]; rfl)
    (fun q k => by
      show V m c main_v5 (((cfg0.win 8).blk t).view.emb (ix2 q k)) = _
      rw [Region.found_main_v5 m c, emb_whole8 t q k]; rfl)
    (fun q k => by
      show V m c main_v6 (((cfg0.win 9).blk t).view.emb (ix2 q k)) = _
      rw [Region.found_main_v6 m c, emb_whole9 t q k]; rfl)
    (fun q k => by
      show V m c main_v7 (((cfg0.win 10).blk t).view.emb (ix2 q k)) = _
      rw [Region.found_main_v7 m c, emb_whole10 t q k]; rfl)
    (fun q => by
      show V m c main_v8 (((cfg0.win 11).blk t).view.emb (ix1 q)) = _
      rw [Region.found_main_v8 m c, emb_vec11 t q]; rfl)
    (fun q => by
      show V m c main_v9 (((cfg0.win 12).blk t).view.emb (ix1 q)) = _
      rw [Region.found_main_v9 m c, emb_vec12 t q]; rfl)
    (fun q => by
      show V m c main_v10 (((cfg0.win 13).blk t).view.emb (ix1 q)) = _
      rw [Region.found_main_v10 m c, emb_vec13 t q]; rfl)
    (fun q => by
      show V m c main_v11 (((cfg0.win 14).blk t).view.emb (ix1 q)) = _
      rw [Region.found_main_v11 m c, emb_vec14 t q]; rfl)
    p q

/-! ## The blocks tile the arrays -/

/-- An index of the array is in point `t`'s block of window 15 iff each coordinate is in the block's range on its axis. -/
theorem mem_blk15 (t : Fin cfg0.N) (i : S8192x1024.Idx) :
    i ∈ ((cfg0.win 15).blk t).view.set ↔ ∀ a : Fin 2, win0_15.index t a * S512x1024.size a ≤ (i a).val
      ∧ (i a).val < win0_15.index t a * S512x1024.size a + S512x1024.size a := by
  show i ∈ ((View.whole main_v12_0).slice (win0_15.rect t)).set ↔ _
  rw [View.set_slice_whole, Rect.mem_set_unit]
  exact Iff.rfl

/-- Every index of window 15's array is in the block of the point its row names. -/
theorem cover15 (i : S8192x1024.Idx) :
    ∃ t : Fin cfg0.N, (cfg0.win 15).flush t = true ∧ i ∈ ((cfg0.win 15).blk t).view.set := by
  have hi0 : (i 0).val < 8192 := (i 0).isLt
  have hi1 : (i 1).val < 1024 := (i 1).isLt
  have hN : grid0.N = 16 := N_0
  obtain ⟨t, ht⟩ : ∃ t : Fin cfg0.N, t.val = (i 0).val / 512 :=
    ⟨⟨(i 0).val / 512, by show (i 0).val / 512 < grid0.N; omega⟩, rfl⟩
  refine ⟨t, flush0_15 t, ?_⟩
  rw [mem_blk15]
  obtain ⟨e0, e1, e2, e15, e16⟩ := index_facts t
  intro a
  match a with
  | ⟨0, _⟩ =>
    show win0_15.index t (0 : Fin 2) * 512 ≤ (i 0).val ∧ (i 0).val < win0_15.index t (0 : Fin 2) * 512 + 512
    have := e15.1; omega
  | ⟨1, _⟩ =>
    show win0_15.index t (1 : Fin 2) * 1024 ≤ (i 1).val ∧ (i 1).val < win0_15.index t (1 : Fin 2) * 1024 + 1024
    have := e15.2; omega

/-- An index of the array is in point `t`'s block of window 16 iff each coordinate is in the block's range on its axis. -/
theorem mem_blk16 (t : Fin cfg0.N) (i : S8192x1024.Idx) :
    i ∈ ((cfg0.win 16).blk t).view.set ↔ ∀ a : Fin 2, win0_16.index t a * S512x1024.size a ≤ (i a).val
      ∧ (i a).val < win0_16.index t a * S512x1024.size a + S512x1024.size a := by
  show i ∈ ((View.whole main_v12_1).slice (win0_16.rect t)).set ↔ _
  rw [View.set_slice_whole, Rect.mem_set_unit]
  exact Iff.rfl

/-- Every index of window 16's array is in the block of the point its row names. -/
theorem cover16 (i : S8192x1024.Idx) :
    ∃ t : Fin cfg0.N, (cfg0.win 16).flush t = true ∧ i ∈ ((cfg0.win 16).blk t).view.set := by
  have hi0 : (i 0).val < 8192 := (i 0).isLt
  have hi1 : (i 1).val < 1024 := (i 1).isLt
  have hN : grid0.N = 16 := N_0
  obtain ⟨t, ht⟩ : ∃ t : Fin cfg0.N, t.val = (i 0).val / 512 :=
    ⟨⟨(i 0).val / 512, by show (i 0).val / 512 < grid0.N; omega⟩, rfl⟩
  refine ⟨t, flush0_16 t, ?_⟩
  rw [mem_blk16]
  obtain ⟨e0, e1, e2, e15, e16⟩ := index_facts t
  intro a
  match a with
  | ⟨0, _⟩ =>
    show win0_16.index t (0 : Fin 2) * 512 ≤ (i 0).val ∧ (i 0).val < win0_16.index t (0 : Fin 2) * 512 + 512
    have := e16.1; omega
  | ⟨1, _⟩ =>
    show win0_16.index t (1 : Fin 2) * 1024 ≤ (i 1).val ∧ (i 1).val < win0_16.index t (1 : Fin 2) * 1024 + 1024
    have := e16.2; omega

/-! ## The arrays after the run -/

theorem final_hidden (c : Dev nD) : (dats m 0 c).arrAt 15 cfg0.N = hiddenNext (params m c) :=
  (dats m 0 c).arrAt_eq_of_cover 15 (hiddenNext (params m c)) (fun t _ => flushed_hidden m c t) cover15

theorem final_cell (c : Dev nD) : (dats m 0 c).arrAt 16 cfg0.N = cellNext (params m c) :=
  (dats m 0 c).arrAt_eq_of_cover 16 (cellNext (params m c)) (fun t _ => flushed_cell m c t) cover16

/-- The kernel program's run: it terminates without a fault, its first result the new hidden state and its second the new
    cell state of the arrays it was launched with, its arguments unchanged. -/
theorem run : θ_run defs (onTc (τ := τ) (main (F := Ideal))) ⟨m, fun _ => 0, ρ⟩ fun r => ∀ c : Dev nD,
      r.2.mem ((c : Thread nD τ).loc main_v12_0) = hiddenNext (params m c)
      ∧ r.2.mem ((c : Thread nD τ).loc main_v12_1) = cellNext (params m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18) :=
  (θ_run defs _ _).mono
    (fun r h c => ⟨(h c).1.trans (final_hidden m c), (h c).2.1.trans (final_cell m c), (h c).2.2⟩)
    (Value.run_blocks m ρ)

end Cert.Lstm.Kernel

end
-- ==== Proof.RefCell.lean ====
/-
  The reference computes the same cell.

  The reference stacks the four gates' weight matrices on each side into one 4096-row matrix and their biases into one
  4096-vector, forms all 4096 pre-activations of a batch row at once — the input-side product, plus the hidden-side
  product, plus the input-side bias, plus the hidden-side bias — and cuts the result into four bands of 1024 columns.
  Column `1024·g + j` of the stacked product reads row `j` of gate `g`'s matrix, so band `g` at unit `j` is gate `g`'s
  pre-activation with the two biases added one after the other.  Its logistic function is spelt `1 / (1 + e^(-p))`.
-/
import proofs.«101882_j5909875000082_2_alg».proof.Proof.Gen.ReferenceIdeal.Read
import proofs.«101882_j5909875000082_2_alg».proof.Proof.Cell
import Idealize.ShloMosaic.Lib.Pipeline.Value

noncomputable section

open scoped BigOperators

namespace Cert.Lstm.Ref

open Cert.ReferenceIdeal Cert.ReferenceIdeal.Gen Cert.ReferenceIdeal.Read Idealize.ShloMosaic Idealize.ShloMosaic.ValueIdx
open Cert.Lstm

/-! ## A stack of four read at piece `g` -/

/-- Row `1024·0 + j` of four matrices stacked by rows is row `j` of the first. -/
theorem rows_0 (a b c d : FVec Ideal S1024x1024 .f32) (j k : Fin 1024) (J : S4096x1024.Idx)
    (hJ0 : (J 0).val = 1024 * 0 + j.val) (hJ1 : (J 1).val = k.val) :
    concatenate S4096x1024 0 [⟨S1024x1024, a⟩, ⟨S1024x1024, b⟩, ⟨S1024x1024, c⟩, ⟨S1024x1024, d⟩] concatenates_S1024x1024_S1024x1024_S1024x1024_S1024x1024_S4096x1024_d0 J = a (ix2 j k) :=
  concatenate_apply_piece (0 : Fin S4096x1024.rank) [⟨S1024x1024, a⟩, ⟨S1024x1024, b⟩, ⟨S1024x1024, c⟩, ⟨S1024x1024, d⟩] concatenates_S1024x1024_S1024x1024_S1024x1024_S1024x1024_S4096x1024_d0 J 0 (by simp) S1024x1024 a rfl rfl (1024 * 0) rfl (ix2 j k)
    (fun e he => match e, he with
      | ⟨0, _⟩, he => absurd (Fin.ext rfl) he
      | ⟨1, _⟩, _ => hJ1.symm)
    hJ0.symm

/-- Entry `1024·0 + j` of four vectors laid end to end is entry `j` of the first. -/
theorem entries_0 (a b c d : FVec Ideal S1024 .f32) (j : Fin 1024) (J : S4096.Idx)
    (hJ0 : (J 0).val = 1024 * 0 + j.val) :
    concatenate S4096 0 [⟨S1024, a⟩, ⟨S1024, b⟩, ⟨S1024, c⟩, ⟨S1024, d⟩] concatenates_S1024_S1024_S1024_S1024_S4096_d0 J = a (ix1 j) :=
  concatenate_apply_piece (0 : Fin S4096.rank) [⟨S1024, a⟩, ⟨S1024, b⟩, ⟨S1024, c⟩, ⟨S1024, d⟩] concatenates_S1024_S1024_S1024_S1024_S4096_d0 J 0 (by simp) S1024 a rfl rfl (1024 * 0) rfl (ix1 j)
    (fun e he => match e, he with
      | ⟨0, _⟩, he => absurd (Fin.ext rfl) he)
    hJ0.symm

/-- Row `1024·1 + j` of four matrices stacked by rows is row `j` of the second. -/
theorem rows_1 (a b c d : FVec Ideal S1024x1024 .f32) (j k : Fin 1024) (J : S4096x1024.Idx)
    (hJ0 : (J 0).val = 1024 * 1 + j.val) (hJ1 : (J 1).val = k.val) :
    concatenate S4096x1024 0 [⟨S1024x1024, a⟩, ⟨S1024x1024, b⟩, ⟨S1024x1024, c⟩, ⟨S1024x1024, d⟩] concatenates_S1024x1024_S1024x1024_S1024x1024_S1024x1024_S4096x1024_d0 J = b (ix2 j k) :=
  concatenate_apply_piece (0 : Fin S4096x1024.rank) [⟨S1024x1024, a⟩, ⟨S1024x1024, b⟩, ⟨S1024x1024, c⟩, ⟨S1024x1024, d⟩] concatenates_S1024x1024_S1024x1024_S1024x1024_S1024x1024_S4096x1024_d0 J 1 (by simp) S1024x1024 b rfl rfl (1024 * 1) rfl (ix2 j k)
    (fun e he => match e, he with
      | ⟨0, _⟩, he => absurd (Fin.ext rfl) he
      | ⟨1, _⟩, _ => hJ1.symm)
    hJ0.symm

/-- Entry `1024·1 + j` of four vectors laid end to end is entry `j` of the second. -/
theorem entries_1 (a b c d : FVec Ideal S1024 .f32) (j : Fin 1024) (J : S4096.Idx)
    (hJ0 : (J 0).val = 1024 * 1 + j.val) :
    concatenate S4096 0 [⟨S1024, a⟩, ⟨S1024, b⟩, ⟨S1024, c⟩, ⟨S1024, d⟩] concatenates_S1024_S1024_S1024_S1024_S4096_d0 J = b (ix1 j) :=
  concatenate_apply_piece (0 : Fin S4096.rank) [⟨S1024, a⟩, ⟨S1024, b⟩, ⟨S1024, c⟩, ⟨S1024, d⟩] concatenates_S1024_S1024_S1024_S1024_S4096_d0 J 1 (by simp) S1024 b rfl rfl (1024 * 1) rfl (ix1 j)
    (fun e he => match e, he with
      | ⟨0, _⟩, he => absurd (Fin.ext rfl) he)
    hJ0.symm

/-- Row `1024·2 + j` of four matrices stacked by rows is row `j` of the third. -/
theorem rows_2 (a b c d : FVec Ideal S1024x1024 .f32) (j k : Fin 1024) (J : S4096x1024.Idx)
    (hJ0 : (J 0).val = 1024 * 2 + j.val) (hJ1 : (J 1).val = k.val) :
    concatenate S4096x1024 0 [⟨S1024x1024, a⟩, ⟨S1024x1024, b⟩, ⟨S1024x1024, c⟩, ⟨S1024x1024, d⟩] concatenates_S1024x1024_S1024x1024_S1024x1024_S1024x1024_S4096x1024_d0 J = c (ix2 j k) :=
  concatenate_apply_piece (0 : Fin S4096x1024.rank) [⟨S1024x1024, a⟩, ⟨S1024x1024, b⟩, ⟨S1024x1024, c⟩, ⟨S1024x1024, d⟩] concatenates_S1024x1024_S1024x1024_S1024x1024_S1024x1024_S4096x1024_d0 J 2 (by simp) S1024x1024 c rfl rfl (1024 * 2) rfl (ix2 j k)
    (fun e he => match e, he with
      | ⟨0, _⟩, he => absurd (Fin.ext rfl) he
      | ⟨1, _⟩, _ => hJ1.symm)
    hJ0.symm

/-- Entry `1024·2 + j` of four vectors laid end to end is entry `j` of the third. -/
theorem entries_2 (a b c d : FVec Ideal S1024 .f32) (j : Fin 1024) (J : S4096.Idx)
    (hJ0 : (J 0).val = 1024 * 2 + j.val) :
    concatenate S4096 0 [⟨S1024, a⟩, ⟨S1024, b⟩, ⟨S1024, c⟩, ⟨S1024, d⟩] concatenates_S1024_S1024_S1024_S1024_S4096_d0 J = c (ix1 j) :=
  concatenate_apply_piece (0 : Fin S4096.rank) [⟨S1024, a⟩, ⟨S1024, b⟩, ⟨S1024, c⟩, ⟨S1024, d⟩] concatenates_S1024_S1024_S1024_S1024_S4096_d0 J 2 (by simp) S1024 c rfl rfl (1024 * 2) rfl (ix1 j)
    (fun e he => match e, he with
      | ⟨0, _⟩, he => absurd (Fin.ext rfl) he)
    hJ0.symm

/-- Row `1024·3 + j` of four matrices stacked by rows is row `j` of the fourth. -/
theorem rows_3 (a b c d : FVec Ideal S1024x1024 .f32) (j k : Fin 1024) (J : S4096x1024.Idx)
    (hJ0 : (J 0).val = 1024 * 3 + j.val) (hJ1 : (J 1).val = k.val) :
    concatenate S4096x1024 0 [⟨S1024x1024, a⟩, ⟨S1024x1024, b⟩, ⟨S1024x1024, c⟩, ⟨S1024x1024, d⟩] concatenates_S1024x1024_S1024x1024_S1024x1024_S1024x1024_S4096x1024_d0 J = d (ix2 j k) :=
  concatenate_apply_piece (0 : Fin S4096x1024.rank) [⟨S1024x1024, a⟩, ⟨S1024x1024, b⟩, ⟨S1024x1024, c⟩, ⟨S1024x1024, d⟩] concatenates_S1024x1024_S1024x1024_S1024x1024_S1024x1024_S4096x1024_d0 J 3 (by simp) S1024x1024 d rfl rfl (1024 * 3) rfl (ix2 j k)
    (fun e he => match e, he with
      | ⟨0, _⟩, he => absurd (Fin.ext rfl) he
      | ⟨1, _⟩, _ => hJ1.symm)
    hJ0.symm

/-- Entry `1024·3 + j` of four vectors laid end to end is entry `j` of the fourth. -/
theorem entries_3 (a b c d : FVec Ideal S1024 .f32) (j : Fin 1024) (J : S4096.Idx)
    (hJ0 : (J 0).val = 1024 * 3 + j.val) :
    concatenate S4096 0 [⟨S1024, a⟩, ⟨S1024, b⟩, ⟨S1024, c⟩, ⟨S1024, d⟩] concatenates_S1024_S1024_S1024_S1024_S4096_d0 J = d (ix1 j) :=
  concatenate_apply_piece (0 : Fin S4096.rank) [⟨S1024, a⟩, ⟨S1024, b⟩, ⟨S1024, c⟩, ⟨S1024, d⟩] concatenates_S1024_S1024_S1024_S1024_S4096_d0 J 3 (by simp) S1024 d rfl rfl (1024 * 3) rfl (ix1 j)
    (fun e he => match e, he with
      | ⟨0, _⟩, he => absurd (Fin.ext rfl) he)
    hJ0.symm

/-! ## One gate inside the stacked pre-activations -/

section gate

variable (x0 x1 x2 : Acts) (x3 : Wts) (x4 : Bias) (x5 : Wts) (x6 : Bias) (x7 : Wts) (x8 : Bias) (x9 : Wts) (x10 : Bias)
  (x11 : Wts) (x12 : Bias) (x13 : Wts) (x14 : Bias) (x15 : Wts) (x16 : Bias) (x17 : Wts) (x18 : Bias)

/-- The input-side product at column `1024·g + j`, for a gate whose matrix `wg` is piece `g` of the stack. -/
theorem xside (wg : Wts) (g : Nat)
    (hW : ∀ (j k : Fin 1024) (J : S4096x1024.Idx), (J 0).val = 1024 * g + j.val → (J 1).val = k.val →
      val_main_v0 (F := Ideal) x3 x7 x11 x15 J = wg (ix2 j k))
    (i : S8192x4096.Idx) (r : Fin 8192) (j : Fin 1024) (hi0 : (i 0).val = r.val) (hi1 : (i 1).val = 1024 * g + j.val) :
    val_main_v5 (F := Ideal) x0 x3 x7 x11 x15 i = proj x0 wg r j := by
  rw [val_main_v5_apply]
  unfold proj
  refine Finset.sum_congr rfl fun k _ => ?_
  rw [val_main_v4_apply]
  refine congrArg₂ (fun a b : EReal => a * b) (congrArg x0 (funext fun e => Fin.ext ?_)) (hW j k _ hi1 rfl)
  match e with
  | ⟨0, _⟩ => exact hi0
  | ⟨1, _⟩ => rfl

/-- The hidden-side product at column `1024·g + j`. -/
theorem hside (wg : Wts) (g : Nat)
    (hW : ∀ (j k : Fin 1024) (J : S4096x1024.Idx), (J 0).val = 1024 * g + j.val → (J 1).val = k.val →
      val_main_v1 (F := Ideal) x5 x9 x13 x17 J = wg (ix2 j k))
    (i : S8192x4096.Idx) (r : Fin 8192) (j : Fin 1024) (hi0 : (i 0).val = r.val) (hi1 : (i 1).val = 1024 * g + j.val) :
    val_main_v7 (F := Ideal) x1 x5 x9 x13 x17 i = proj x1 wg r j := by
  rw [val_main_v7_apply]
  unfold proj
  refine Finset.sum_congr rfl fun k _ => ?_
  rw [val_main_v6_apply]
  refine congrArg₂ (fun a b : EReal => a * b) (congrArg x1 (funext fun e => Fin.ext ?_)) (hW j k _ hi1 rfl)
  match e with
  | ⟨0, _⟩ => exact hi0
  | ⟨1, _⟩ => rfl

/-- The input-side bias, repeated down the batch, at column `1024·g + j`. -/
theorem xbias (bg : Bias) (g : Nat)
    (hB : ∀ (j : Fin 1024) (J : S4096.Idx), (J 0).val = 1024 * g + j.val → val_main_v2 (F := Ideal) x4 x8 x12 x16 J = bg (ix1 j))
    (i : S8192x4096.Idx) (j : Fin 1024) (hi1 : (i 1).val = 1024 * g + j.val) :
    val_main_v10 (F := Ideal) x4 x8 x12 x16 i = bg (ix1 j) := by
  rw [val_main_v10_apply, val_main_v9_apply]
  exact hB j _ hi1

/-- The hidden-side bias at column `1024·g + j`. -/
theorem hbias (bg : Bias) (g : Nat)
    (hB : ∀ (j : Fin 1024) (J : S4096.Idx), (J 0).val = 1024 * g + j.val → val_main_v3 (F := Ideal) x6 x10 x14 x18 J = bg (ix1 j))
    (i : S8192x4096.Idx) (j : Fin 1024) (hi1 : (i 1).val = 1024 * g + j.val) :
    val_main_v13 (F := Ideal) x6 x10 x14 x18 i = bg (ix1 j) := by
  rw [val_main_v13_apply, val_main_v12_apply]
  exact hB j _ hi1

/-- All 4096 pre-activations of a batch row: column `1024·g + j` is gate `g`'s pre-activation at unit `j`. -/
theorem stacked (wx wh : Wts) (bx bh : Bias) (g : Nat)
    (hWx : ∀ (j k : Fin 1024) (J : S4096x1024.Idx), (J 0).val = 1024 * g + j.val → (J 1).val = k.val →
      val_main_v0 (F := Ideal) x3 x7 x11 x15 J = wx (ix2 j k))
    (hWh : ∀ (j k : Fin 1024) (J : S4096x1024.Idx), (J 0).val = 1024 * g + j.val → (J 1).val = k.val →
      val_main_v1 (F := Ideal) x5 x9 x13 x17 J = wh (ix2 j k))
    (hBx : ∀ (j : Fin 1024) (J : S4096.Idx), (J 0).val = 1024 * g + j.val → val_main_v2 (F := Ideal) x4 x8 x12 x16 J = bx (ix1 j))
    (hBh : ∀ (j : Fin 1024) (J : S4096.Idx), (J 0).val = 1024 * g + j.val → val_main_v3 (F := Ideal) x6 x10 x14 x18 J = bh (ix1 j))
    (i : S8192x4096.Idx) (r : Fin 8192) (j : Fin 1024) (hi0 : (i 0).val = r.val) (hi1 : (i 1).val = 1024 * g + j.val) :
    val_main_v14 (F := Ideal) x0 x1 x3 x4 x5 x6 x7 x8 x9 x10 x11 x12 x13 x14 x15 x16 x17 x18 i = pre x0 x1 wx wh bx bh r j := by
  rw [val_main_v14_apply, val_main_v11_apply, val_main_v8_apply,
    xside x0 x3 x7 x11 x15 wx g hWx i r j hi0 hi1, hside x1 x5 x9 x13 x17 wh g hWh i r j hi0 hi1,
    xbias x4 x8 x12 x16 bx g hBx i j hi1, hbias x6 x10 x14 x18 bh g hBh i j hi1]
  exact pre_eq_successive x0 x1 wx wh bx bh r j

/-! ## The four bands -/

/-- Band 0 is the input gate's pre-activation. -/
theorem band_0 (r : Fin 8192) (j : Fin 1024) :
    val_main_v15 (F := Ideal) x0 x1 x3 x4 x5 x6 x7 x8 x9 x10 x11 x12 x13 x14 x15 x16 x17 x18 (ix2 r j) = pre x0 x1 x3 x5 x4 x6 r j := by
  rw [val_main_v15_apply]
  exact stacked x0 x1 x3 x4 x5 x6 x7 x8 x9 x10 x11 x12 x13 x14 x15 x16 x17 x18 x3 x5 x4 x6 0
    (fun j k J h0 h1 => by unfold val_main_v0; exact rows_0 x3 x7 x11 x15 j k J h0 h1)
    (fun j k J h0 h1 => by unfold val_main_v1; exact rows_0 x5 x9 x13 x17 j k J h0 h1)
    (fun j J h0 => by unfold val_main_v2; exact entries_0 x4 x8 x12 x16 j J h0)
    (fun j J h0 => by unfold val_main_v3; exact entries_0 x6 x10 x14 x18 j J h0)
    _ r j rfl (by show (j : Fin 1024).val = 1024 * 0 + j.val; omega)

/-- Band 1 is the forget gate's pre-activation. -/
theorem band_1 (r : Fin 8192) (j : Fin 1024) :
    val_main_v16 (F := Ideal) x0 x1 x3 x4 x5 x6 x7 x8 x9 x10 x11 x12 x13 x14 x15 x16 x17 x18 (ix2 r j) = pre x0 x1 x7 x9 x8 x10 r j := by
  rw [val_main_v16_apply]
  exact stacked x0 x1 x3 x4 x5 x6 x7 x8 x9 x10 x11 x12 x13 x14 x15 x16 x17 x18 x7 x9 x8 x10 1
    (fun j k J h0 h1 => by unfold val_main_v0; exact rows_1 x3 x7 x11 x15 j k J h0 h1)
    (fun j k J h0 h1 => by unfold val_main_v1; exact rows_1 x5 x9 x13 x17 j k J h0 h1)
    (fun j J h0 => by unfold val_main_v2; exact entries_1 x4 x8 x12 x16 j J h0)
    (fun j J h0 => by unfold val_main_v3; exact entries_1 x6 x10 x14 x18 j J h0)
    _ r j rfl (by show 1024 + j.val = 1024 * 1 + j.val; omega)

/-- Band 2 is the candidate gate's pre-activation. -/
theorem band_2 (r : Fin 8192) (j : Fin 1024) :
    val_main_v17 (F := Ideal) x0 x1 x3 x4 x5 x6 x7 x8 x9 x10 x11 x12 x13 x14 x15 x16 x17 x18 (ix2 r j) = pre x0 x1 x11 x13 x12 x14 r j := by
  rw [val_main_v17_apply]
  exact stacked x0 x1 x3 x4 x5 x6 x7 x8 x9 x10 x11 x12 x13 x14 x15 x16 x17 x18 x11 x13 x12 x14 2
    (fun j k J h0 h1 => by unfold val_main_v0; exact rows_2 x3 x7 x11 x15 j k J h0 h1)
    (fun j k J h0 h1 => by unfold val_main_v1; exact rows_2 x5 x9 x13 x17 j k J h0 h1)
    (fun j J h0 => by unfold val_main_v2; exact entries_2 x4 x8 x12 x16 j J h0)
    (fun j J h0 => by unfold val_main_v3; exact entries_2 x6 x10 x14 x18 j J h0)
    _ r j rfl (by show 2048 + j.val = 1024 * 2 + j.val; omega)

/-- Band 3 is the output gate's pre-activation. -/
theorem band_3 (r : Fin 8192) (j : Fin 1024) :
    val_main_v18 (F := Ideal) x0 x1 x3 x4 x5 x6 x7 x8 x9 x10 x11 x12 x13 x14 x15 x16 x17 x18 (ix2 r j) = pre x0 x1 x15 x17 x16 x18 r j := by
  rw [val_main_v18_apply]
  exact stacked x0 x1 x3 x4 x5 x6 x7 x8 x9 x10 x11 x12 x13 x14 x15 x16 x17 x18 x15 x17 x16 x18 3
    (fun j k J h0 h1 => by unfold val_main_v0; exact rows_3 x3 x7 x11 x15 j k J h0 h1)
    (fun j k J h0 h1 => by unfold val_main_v1; exact rows_3 x5 x9 x13 x17 j k J h0 h1)
    (fun j J h0 => by unfold val_main_v2; exact entries_3 x4 x8 x12 x16 j J h0)
    (fun j J h0 => by unfold val_main_v3; exact entries_3 x6 x10 x14 x18 j J h0)
    _ r j rfl (by show 3072 + j.val = 1024 * 3 + j.val; omega)

/-! ## The gates' activations and the update -/

/-- The input gate: the quotient spelling of the logistic function of band 0. -/
theorem gate_i (r : Fin 8192) (j : Fin 1024) :
    val_main_v24 (F := Ideal) x0 x1 x3 x4 x5 x6 x7 x8 x9 x10 x11 x12 x13 x14 x15 x16 x17 x18 (ix2 r j) = Ideal.logistic (pre x0 x1 x3 x5 x4 x6 r j) := by
  rw [val_main_v24_apply, val_main_v23_apply, val_main_cst_0_apply, val_main_v22_apply, val_main_v21_apply, val_main_cst_apply,
    val_main_v20_apply, val_main_v19_apply, band_0]
  exact logistic_eq_quotient _

/-- The forget gate. -/
theorem gate_f (r : Fin 8192) (j : Fin 1024) :
    val_main_v30 (F := Ideal) x0 x1 x3 x4 x5 x6 x7 x8 x9 x10 x11 x12 x13 x14 x15 x16 x17 x18 (ix2 r j) = Ideal.logistic (pre x0 x1 x7 x9 x8 x10 r j) := by
  rw [val_main_v30_apply, val_main_v29_apply, val_main_cst_2_apply, val_main_v28_apply, val_main_v27_apply, val_main_cst_1_apply,
    val_main_v26_apply, val_main_v25_apply, band_1]
  exact logistic_eq_quotient _

/-- The candidate. -/
theorem gate_g (r : Fin 8192) (j : Fin 1024) :
    val_main_v31 (F := Ideal) x0 x1 x3 x4 x5 x6 x7 x8 x9 x10 x11 x12 x13 x14 x15 x16 x17 x18 (ix2 r j) = Ideal.tanh (pre x0 x1 x11 x13 x12 x14 r j) := by
  rw [val_main_v31_apply, band_2]
  rfl

/-- The output gate. -/
theorem gate_o (r : Fin 8192) (j : Fin 1024) :
    val_main_v37 (F := Ideal) x0 x1 x3 x4 x5 x6 x7 x8 x9 x10 x11 x12 x13 x14 x15 x16 x17 x18 (ix2 r j) = Ideal.logistic (pre x0 x1 x15 x17 x16 x18 r j) := by
  rw [val_main_v37_apply, val_main_v36_apply, val_main_cst_4_apply, val_main_v35_apply, val_main_v34_apply, val_main_cst_3_apply,
    val_main_v33_apply, val_main_v32_apply, band_3]
  exact logistic_eq_quotient _

/-- The reference's second result is the new cell state. -/
theorem cell_eq : val_main_v40 (F := Ideal) x0 x1 x2 x3 x4 x5 x6 x7 x8 x9 x10 x11 x12 x13 x14 x15 x16 x17 x18 = cellNext ⟨x0, x1, x2, x3, x4, x5, x6, x7, x8, x9, x10, x11, x12, x13, x14, x15, x16, x17, x18⟩ := by
  funext i
  obtain ⟨r, j, rfl⟩ : ∃ (r : Fin 8192) (j : Fin 1024), i = ix2 r j := ⟨i 0, i 1, eq_ix2 i⟩
  rw [val_main_v40_apply, val_main_v38_apply, val_main_v39_apply, gate_f, gate_i, gate_g]
  rfl

/-- The reference's first result is the new hidden state. -/
theorem hidden_eq : val_main_v42 (F := Ideal) x0 x1 x2 x3 x4 x5 x6 x7 x8 x9 x10 x11 x12 x13 x14 x15 x16 x17 x18 = hiddenNext ⟨x0, x1, x2, x3, x4, x5, x6, x7, x8, x9, x10, x11, x12, x13, x14, x15, x16, x17, x18⟩ := by
  funext i
  obtain ⟨r, j, rfl⟩ : ∃ (r : Fin 8192) (j : Fin 1024), i = ix2 r j := ⟨i 0, i 1, eq_ix2 i⟩
  rw [val_main_v42_apply, val_main_v41_apply, gate_o, cell_eq]
  rfl

end gate

end Cert.Lstm.Ref

end
-- ==== Proof.Claims.lean ====
/-
  The five conjuncts.

  The kernel program and its idealization run, fault-free, with their arguments unchanged: their frames are generated
  whole.  The reference has no kernel; its frame is its run with the two results dropped.  The idealization rewrote no
  operation, so there is nothing to preserve.  And at exact arithmetic both programs end with the new hidden state and
  the new cell state of one LSTM step on the arrays they were launched with (`Cert.Lstm.hiddenNext`, `Cert.Lstm.cellNext`):
  the kernel's two arrays by its 16 blocks, the reference's two results by reading its operations at an index; launched
  on equal arrays the results are equal.  The precondition (finite inputs) is never opened: associativity of addition and
  the definition of the logistic function hold on all extended reals.
-/
import proofs.«101882_j5909875000082_2_alg».proof.Defs
import proofs.«101882_j5909875000082_2_alg».proof.Proof.Gen.Kernel.Frame
import proofs.«101882_j5909875000082_2_alg».proof.Proof.Gen.Pre_finite_inputs
import proofs.«101882_j5909875000082_2_alg».proof.Proof.KernelArrays
import proofs.«101882_j5909875000082_2_alg».proof.Proof.RefCell

noncomputable section

namespace Cert.Proof.LstmClaims

open Idealize.ShloMosaic Idealize.ShloMosaic.TcCoe Idealize.SL.Sem
open Cert.Lstm

theorem frame_kernel : Cert.frame_Kernel := fun m ρ _ => Cert.Kernel.Gen.frame m ρ

theorem frame_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

theorem algebraic : Cert.algebraic_KernelIdeal_ReferenceIdeal := by
  intro m ρ m' ρ' _ hagree
  refine ⟨fun c => hiddenNext (Kernel.params m c), fun c => cellNext (Kernel.params m c), Kernel.run m ρ, ?_⟩
  refine (θ_run Cert.ReferenceIdeal.defs _ _).mono
    (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10, a11, a12, a13, a14, a15, a16, a17, a18⟩ := hagree c
    rw [Cert.ReferenceIdeal.Read.val_main_v42_eq, Ref.hidden_eq, a0, a1, a2, a3, a4, a5, a6, a7, a8, a9, a10, a11, a12, a13, a14, a15, a16, a17, a18]
    rfl
  · obtain ⟨a0, a1, a2, a3, a4, a5, a6, a7, a8, a9, a10, a11, a12, a13, a14, a15, a16, a17, a18⟩ := hagree c
    rw [Cert.ReferenceIdeal.Read.val_main_v40_eq, Ref.cell_eq, a0, a1, a2, a3, a4, a5, a6, a7, a8, a9, a10, a11, a12, a13, a14, a15, a16, a17, a18]
    rfl

end Cert.Proof.LstmClaims

end
-- ==== Proof.lean ====
/-
  One step of an LSTM cell: a Pallas kernel against a plain jnp reference, at exact arithmetic.

  Both programs take a batch `x` of 8192 rows, the previous hidden and cell states `h`, `c`, and for each of the four gates
  an input-side and a hidden-side weight matrix and bias.  Both return the new hidden state and the new cell state

      c' = σ(p_f) · c + σ(p_i) · tanh(p_g),      h' = σ(p_o) · tanh(c'),

  where a gate's pre-activation at batch row `r`, unit `j` is `Σ_k x[r,k]·Wx[j,k] + Σ_k h[r,k]·Wh[j,k]` plus its two biases.

  They differ in arrangement only.  The kernel works on 16 blocks of 512 rows, contracts against each gate's matrices
  separately (after narrowing the operands to bf16, which changes nothing on exact numbers), and adds a bias the host summed
  beforehand.  The reference stacks the gates' matrices and biases, forms all pre-activations in two products, adds the two
  biases one after the other, cuts out the four bands, and spells the logistic function as a quotient.  On the extended reals
  addition is associative and that quotient is the logistic function by definition, so the results agree entry by entry for
  all inputs; the finiteness precondition is not used.

  The modules: `Cell` states the cell; `GateBlock` and `BlockCell` read the kernel body's arithmetic at an entry of a block;
  `RegionArrays` says what the host prepared; `KernelArrays` assembles the kernel's two arrays from its blocks; `RefCell` reads
  the reference; `Claims` proves the five conjuncts.
-/
import proofs.«101882_j5909875000082_2_alg».proof.Defs
import proofs.«101882_j5909875000082_2_alg».proof.Proof.Gen.Kernel
import proofs.«101882_j5909875000082_2_alg».proof.Proof.Gen.KernelIdeal
import proofs.«101882_j5909875000082_2_alg».proof.Proof.Gen.ReferenceIdeal
import proofs.«101882_j5909875000082_2_alg».proof.Proof.Gen.Pre_finite_inputs
import proofs.«101882_j5909875000082_2_alg».proof.Proof.Claims

noncomputable section

namespace Cert.Proof

theorem claim : Cert.Claim :=
  ⟨Cert.Kernel.Gen.facts, Cert.KernelIdeal.Gen.facts, Cert.ReferenceIdeal.Gen.facts, Cert.Pre_finite_inputs.Gen.facts,
    LstmClaims.frame_kernel, LstmClaims.frame_ideal, LstmClaims.frame_reference, LstmClaims.preserves, LstmClaims.algebraic⟩

end Cert.Proof

end
